-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x64 : Shape := ⟨3, ![2, 4096, 64]⟩
abbrev S3x4096x4096 : Shape := ⟨3, ![3, 4096, 4096]⟩
abbrev S3x64x64 : Shape := ⟨3, ![3, 64, 64]⟩
abbrev S1x64 : Shape := ⟨2, ![1, 64]⟩
abbrev S_ : Shape := ⟨0, ![]⟩

class Facts : Prop where
  bcast_S_S2x4096x64 : S_.BroadcastsInDim S2x4096x64 (![] : Fin 0 → Fin S2x4096x64.rank)
  reducesTo_S2x4096x64_S_d0_1_2 : S2x4096x64.ReducesTo [0, 1, 2] S_
  h_S_ : 0 < S_.numel
  bcast_S_S3x4096x4096 : S_.BroadcastsInDim S3x4096x4096 (![] : Fin 0 → Fin S3x4096x4096.rank)
  reducesTo_S3x4096x4096_S_d0_1_2 : S3x4096x4096.ReducesTo [0, 1, 2] S_
  bcast_S_S3x64x64 : S_.BroadcastsInDim S3x64x64 (![] : Fin 0 → Fin S3x64x64.rank)
  reducesTo_S3x64x64_S_d0_1_2 : S3x64x64.ReducesTo [0, 1, 2] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  main_v23

def fn {F : FTy → Type} [FloatOps F] (main_arg0 : FVec F S2x4096x64 .f32) (main_arg1 : FVec F S3x4096x4096 .f32) (main_arg2 : FVec F S3x4096x4096 .f32) (main_arg3 : FVec F S3x64x64 .f32) (main_arg4 : FVec F S1x64 .f32) : IVec S_ 1 :=
  let main_v0 : FVec F S2x4096x64 .f32 := Host.absf main_arg0
  let main_cst : FVec F S_ .f32 := constant S_ .f32 0x7F800000#32
  let main_v1 : FVec F S2x4096x64 .f32 := broadcastInDim S2x4096x64 ![] bcast_S_S2x4096x64 main_cst
  let main_v2 : IVec S2x4096x64 1 := cmpf .olt main_v0 main_v1
  let main_c : IVec S_ 1 := constantI S_ 1 1#1
  let main_v3 : IVec S_ 1 := (fun x v => Host.reduce IntOp.andi x v reducesTo_S2x4096x64_S_d0_1_2 h_S_) main_v2 main_c
  let main_v4 : FVec F S3x4096x4096 .f32 := Host.absf main_arg1
  let main_cst_0 : FVec F S_ .f32 := constant S_ .f32 0x7F800000#32
  let main_v5 : FVec F S3x4096x4096 .f32 := broadcastInDim S3x4096x4096 ![] bcast_S_S3x4096x4096 main_cst_0
  let main_v6 : IVec S3x4096x4096 1 := cmpf .olt main_v4 main_v5
  let main_c_1 : IVec S_ 1 := constantI S_ 1 1#1
  let main_v7 : IVec S_ 1 := (fun x v => Host.reduce IntOp.andi x v reducesTo_S3x4096x4096_S_d0_1_2 h_S_) main_v6 main_c_1
  let main_v8 : IVec S_ 1 := andi main_v3 main_v7
  let main_v9 : FVec F S3x4096x4096 .f32 := Host.absf main_arg2
  let main_cst_2 : FVec F S_ .f32 := constant S_ .f32 0x7F800000#32
  let main_v10 : FVec F S3x4096x4096 .f32 := broadcastInDim S3x4096x4096 ![] bcast_S_S3x4096x4096 main_cst_2
  let main_v11 : IVec S3x4096x4096 1 := cmpf .olt main_v9 main_v10
  let main_c_3 : IVec S_ 1 := constantI S_ 1 1#1
  let main_v12 : IVec S_ 1 := (fun x v => Host.reduce IntOp.andi x v reducesTo_S3x4096x4096_S_d0_1_2 h_S_) main_v11 main_c_3
  let main_v13 : IVec S_ 1 := andi main_v8 main_v12
  let main_v14 : FVec F S3x64x64 .f32 := Host.absf main_arg3
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg4 main_v13 main_v16
-- ==== Kernel.lean ====
abbrev S2x4096x64 : Shape := ⟨3, ![2, 4096, 64]⟩
abbrev S3x4096x4096 : Shape := ⟨3, ![3, 4096, 4096]⟩
abbrev S3x64x64 : Shape := ⟨3, ![3, 64, 64]⟩
abbrev S1x64 : Shape := ⟨2, ![1, 64]⟩
abbrev S4096x128 : Shape := ⟨2, ![4096, 128]⟩
abbrev S4096x64 : Shape := ⟨2, ![4096, 64]⟩
abbrev S1x512x4096 : Shape := ⟨3, ![1, 512, 4096]⟩
abbrev S1x64x64 : Shape := ⟨3, ![1, 64, 64]⟩
abbrev S512x128 : Shape := ⟨2, ![512, 128]⟩
abbrev S1x4096x64 : Shape := ⟨3, ![1, 4096, 64]⟩
abbrev S64x64 : Shape := ⟨2, ![64, 64]⟩
abbrev S512x4096 : Shape := ⟨2, ![512, 4096]⟩
abbrev S1x128 : Shape := ⟨2, ![1, 128]⟩

abbrev nBuf : Space → Nat
  | .hbm => 8
  | .vmem => 10
  | .smem => 0
  | _ => 0

abbrev bufTy : (tb : Table) → Fin (tcTables nBuf tb) → BufTy
  | .hbm, ⟨0, _⟩ => ⟨S2x4096x64, .f32⟩
  | .hbm, ⟨1, _⟩ => ⟨S3x4096x4096, .f32⟩
  | .hbm, ⟨2, _⟩ => ⟨S3x4096x4096, .f32⟩
  | .hbm, ⟨3, _⟩ => ⟨S3x64x64, .f32⟩
  | .hbm, ⟨4, _⟩ => ⟨S1x64, .f32⟩
  | .hbm, ⟨5, _⟩ => ⟨S4096x128, .f32⟩
  | .hbm, ⟨6, _⟩ => ⟨S4096x64, .f32⟩
  | .hbm, ⟨7, _⟩ => ⟨S4096x64, .f32⟩
  | .local _ .vmem, ⟨0, _⟩ => ⟨S2x4096x64, .f32⟩
  | .local _ .vmem, ⟨1, _⟩ => ⟨S1x512x4096, .f32⟩
  | .local _ .vmem, ⟨2, _⟩ => ⟨S1x512x4096, .f32⟩
  | .local _ .vmem, ⟨3, _⟩ => ⟨S1x512x4096, .f32⟩
  | .local _ .vmem, ⟨4, _⟩ => ⟨S1x512x4096, .f32⟩
  | .local _ .vmem, ⟨5, _⟩ => ⟨S1x64x64, .f32⟩
  | .local _ .vmem, ⟨6, _⟩ => ⟨S1x64x64, .f32⟩
  | .local _ .vmem, ⟨7, _⟩ => ⟨S1x64, .f32⟩
  | .local _ .vmem, ⟨8, _⟩ => ⟨S512x128, .f32⟩
  | .local _ .vmem, ⟨9, _⟩ => ⟨S512x128, .f32⟩
  | _, _ => ⟨S2x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v23 : BitVec 1 := Scalar.cmpi .eq arg1 c0_i32
  let v24 : BitVec 32 := Scalar.extui v23
  let c0_i32_17 : BitVec 32 := 0#32
  let v25 : BitVec 1 := Scalar.cmpi .ne v24 c0_i32_17
  v25

def k0_cond2 (i : grid0.Coords) : BitVec 1 :=
  let arg1 : BitVec 32 := BitVec.ofNat 32 (i 1).val
  let c0_i32_18 : BitVec 32 := 0#32
  let v26 : BitVec 1 := Scalar.cmpi .sgt arg1 c0_i32_18
  let v27 : BitVec 32 := Scalar.extui v26
  let c0_i32_19 : BitVec 32 := 0#32
  let v28 : BitVec 1 := Scalar.cmpi .ne v27 c0_i32_19
  v28

def k0_cond3 (i : grid0.Coords) : BitVec 1 :=
  let arg1 : BitVec 32 := BitVec.ofNat 32 (i 1).val
  let c2_i32 : BitVec 32 := 2#32
  let v29 : BitVec 1 := Scalar.cmpi .eq arg1 c2_i32
  let v30 : BitVec 32 := Scalar.extui v29
  let c0_i32_20 : BitVec 32 := 0#32
  let v31 : BitVec 1 := Scalar.cmpi .ne v30 c0_i32_20
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2x4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S4096x128_S4096x64_0_0 : S4096x128.Slices ![0, 0] S4096x64
  slices_S4096x128_S4096x64_0_64 : S4096x128.Slices ![0, 64] S4096x64
  inb_S2x4096x64_S1x4096x64_0_0_0 : ∀ a, (![0, 0, 0] : Fin 3 → Nat) a + S1x4096x64.size a ≤ S2x4096x64.size a
  h_S1x4096x64 : 0 < S1x4096x64.numel
  shapeCasts_S1x4096x64_S4096x64 : S1x4096x64.ShapeCasts S4096x64
  inb_S2x4096x64_S1x4096x64_1_0_0 : ∀ a, (![1, 0, 0] : Fin 3 → Nat) a + S1x4096x64.size a ≤ S2x4096x64.size a
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  concatenates_S4096x64_S4096x64_S4096x128_d1 : Shape.Concatenates [S4096x64, S4096x64] S4096x128 1
  bitsLt_bf16_f32 : FTy.bits .bf16 < FTy.bits .f32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x64_S1x64_0_0 : ∀ a, (![0, 0] : Fin 2 → Nat) a + S1x64.size a ≤ S1x64.size a
  h_S1x64 : 0 < S1x64.numel
  concatenates_S1x64_S1x64_S1x128_d1 : Shape.Concatenates [S1x64, S1x64] S1x128 1
  broadcasts_S1x128_S512x128 : S1x128.Broadcasts S512x128
  dot_S4096x64_S64x64_S4096x64_1_0_0_1_n_n_wf : DotDims.WF S4096x64 S64x64 S4096x64 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x4096x64.size a ≤ S2x4096x64.size a
  hwx0_0 : ∀ i : grid0.Coords, EltTy.bits .f32 = 32 ∨ (Rect.block (s := S2x4096x64) S2x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S3x4096x4096.size a
  hwx0_1 : ∀ i : grid0.Coords, EltTy.bits .f32 = 32 ∨ (Rect.block (s := S3x4096x4096) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S3x4096x4096.size a
  hwx0_2 : ∀ i : grid0.Coords, EltTy.bits .f32 = 32 ∨ (Rect.block (s := S3x4096x4096) S1x512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S3x64x64.size a
  hwx0_3 : ∀ i : grid0.Coords, EltTy.bits .f32 = 32 ∨ (Rect.block (s := S3x64x64) S1x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S2x4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S2x4096x64 : Shape := ⟨3, ![2, 4096, 64]⟩
abbrev S3x4096x4096 : Shape := ⟨3, ![3, 4096, 4096]⟩
abbrev S3x64x64 : Shape := ⟨3, ![3, 64, 64]⟩
abbrev S1x64 : Shape := ⟨2, ![1, 64]⟩
abbrev S1x4096x64 : Shape := ⟨3, ![1, 4096, 64]⟩
abbrev S4096x64 : Shape := ⟨2, ![4096, 64]⟩
abbrev S1x4096x4096 : Shape := ⟨3, ![1, 4096, 4096]⟩
abbrev S4096x4096 : Shape := ⟨2, ![4096, 4096]⟩
abbrev S1x64x64 : Shape := ⟨3, ![1, 64, 64]⟩
abbrev S64x64 : Shape := ⟨2, ![64, 64]⟩
abbrev S_ : Shape := ⟨0, ![]⟩
abbrev S1x2x4096x64 : Shape := ⟨4, ![1, 2, 4096, 64]⟩
abbrev S3x2x4096x64 : Shape := ⟨4, ![3, 2, 4096, 64]⟩

abbrev nBuf : Space → Nat
  | .hbm => 119
  | .vmem => 0
  | .smem => 0
  | _ => 0

abbrev bufTy : (tb : Table) → Fin (tcTables nBuf tb) → BufTy
  | .hbm, ⟨0, _⟩ => ⟨S2x4096x64, .f32⟩
  | .hbm, ⟨1, _⟩ => ⟨S3x4096x4096, .f32⟩
  | .hbm, ⟨2, _⟩ => ⟨S3x4096x4096, .f32⟩
  | .hbm, ⟨3, _⟩ => ⟨S3x64x64, .f32⟩
  | .hbm, ⟨4, _⟩ => ⟨S1x64, .f32⟩
  | .hbm, ⟨5, _⟩ => ⟨S1x4096x64, .f32⟩
  | .hbm, ⟨6, _⟩ => ⟨S4096x64, .f32⟩
  | .hbm, ⟨7, _⟩ => ⟨S1x4096x64, .f32⟩
  | .hbm, ⟨8, _⟩ => ⟨S4096x64, .f32⟩
  | .hbm, ⟨9, _⟩ => ⟨S1x4096x4096, .f32⟩
  | .hbm, ⟨10, _⟩ => ⟨S4096x4096, .f32⟩
  | .hbm, ⟨11, _⟩ => ⟨S4096x64, .f32⟩
  | .hbm, ⟨12, _⟩ => ⟨S1x64x64, .f32⟩
  | .hbm, ⟨13, _⟩ => ⟨S64x64, .f32⟩
  | .hbm, ⟨14, _⟩ => ⟨S4096x64, .f32⟩
  | .hbm, ⟨15, _⟩ => ⟨S1x4096x4096, .f32⟩
  | .hbm, ⟨16, _⟩ => ⟨S4096x4096, .f32⟩
  | .hbm, ⟨17, _⟩ => ⟨S4096x64, .f32⟩
  | .hbm, ⟨18, _⟩ => ⟨S_, .f32⟩
  | .hbm, ⟨19, _⟩ => ⟨S4096x64, .f32⟩
  | .hbm, ⟨20, _⟩ => ⟨S4096x64, .f32⟩
  | .hbm, ⟨21, _⟩ => ⟨S1x64x64, .f32⟩
  | .hbm, ⟨22, _⟩ => ⟨S64x64, .f32⟩
  | .hbm, ⟨23, _⟩ => ⟨S4096x64, .f32⟩
  | .hbm, ⟨24, _⟩ => ⟨S4096x64, .f32⟩
  | .hbm, ⟨25, _⟩ => ⟨S1x4096x4096, .f32⟩
  | .hbm, ⟨26, _⟩ => ⟨S4096x4096, .f32⟩
  | .hbm, ⟨27, _⟩ => ⟨S4096x64, .f32⟩
  | .hbm, ⟨28, _⟩ => ⟨S1x64x64, .f32⟩
  | .hbm, ⟨29, _⟩ => ⟨S64x64, .f32⟩
  | .hbm, ⟨30, _⟩ => ⟨S4096x64, .f32⟩
  | .hbm, ⟨31, _⟩ => ⟨S1x4096x4096, .f32⟩
  | .hbm, ⟨32, _⟩ => ⟨S4096x4096, .f32⟩
  | .hbm, ⟨33, _⟩ => ⟨S4096x64, .f32⟩
  | .hbm, ⟨34, _⟩ => ⟨S1x64x64, .f32⟩
  | .hbm, ⟨35, _⟩ => ⟨S64x64, .f32⟩
  | .hbm, ⟨36, _⟩ => ⟨S4096x64, .f32⟩
  | .hbm, ⟨37, _⟩ => ⟨S4096x64, .f32⟩
  | .hbm, ⟨38, _⟩ => ⟨S1x4096x64, .f32⟩
  | .hbm, ⟨39, _⟩ => ⟨S1x4096x64, .f32⟩
  | .hbm, ⟨40, _⟩ => ⟨S2x4096x64, .f32⟩
  | .hbm, ⟨41, _⟩ => ⟨S1x4096x4096, .f32⟩
  | .hbm, ⟨42, _⟩ => ⟨S4096x4096, .f32⟩
  | .hbm, ⟨43, _⟩ => ⟨S4096x64, .f32⟩
  | .hbm, ⟨44, _⟩ => ⟨S1x64x64, .f32⟩
  | .hbm, ⟨45, _⟩ => ⟨S64x64, .f32⟩
  | .hbm, ⟨46, _⟩ => ⟨S4096x64, .f32⟩
  | .hbm, ⟨47, _⟩ => ⟨S1x4096x4096, .f32⟩
  | .hbm, ⟨48, _⟩ => ⟨S4096x4096, .f32⟩
  | .hbm, ⟨49, _⟩ => ⟨S4096x64, .f32⟩
  | .hbm, ⟨50, _⟩ => ⟨S_, .f32⟩
  | .hbm, ⟨51, _⟩ => ⟨S4096x64, .f32⟩
  | .hbm, ⟨52, _⟩ => ⟨S4096x64, .f32⟩
  | .hbm, ⟨53, _⟩ => ⟨S1x64x64, .f32⟩
  | .hbm, ⟨54, _⟩ => ⟨S64x64, .f32⟩
  | .hbm, ⟨55, _⟩ => ⟨S4096x64, .f32⟩
  | .hbm, ⟨56, _⟩ => ⟨S4096x64, .f32⟩
  | .hbm, ⟨57, _⟩ => ⟨S1x4096x4096, .f32⟩
  | .hbm, ⟨58, _⟩ => ⟨S4096x4096, .f32⟩
  | .hbm, ⟨59, _⟩ => ⟨S4096x64, .f32⟩
  | .hbm, ⟨60, _⟩ => ⟨S1x64x64, .f32⟩
  | .hbm, ⟨61, _⟩ => ⟨S64x64, .f32⟩
  | .hbm, ⟨62, _⟩ => ⟨S4096x64, .f32⟩
  | .hbm, ⟨63, _⟩ => ⟨S1x4096x4096, .f32⟩
  | .hbm, ⟨64, _⟩ => ⟨S4096x4096, .f32⟩
  | .hbm, ⟨65, _⟩ => ⟨S4096x64, .f32⟩
  | .hbm, ⟨66, _⟩ => ⟨S1x64x64, .f32⟩
  | .hbm, ⟨67, _⟩ => ⟨S64x64, .f32⟩
  | .hbm, ⟨68, _⟩ => ⟨S4096x64, .f32⟩
  | .hbm, ⟨69, _⟩ => ⟨S4096x64, .f32⟩
  | .hbm, ⟨70, _⟩ => ⟨S1x4096x64, .f32⟩
  | .hbm, ⟨71, _⟩ => ⟨S1x4096x64, .f32⟩
  | .hbm, ⟨72, _⟩ => ⟨S2x4096x64, .f32⟩
  | .hbm, ⟨73, _⟩ => ⟨S1x4096x4096, .f32⟩
  | .hbm, ⟨74, _⟩ => ⟨S4096x4096, .f32⟩
  | .hbm, ⟨75, _⟩ => ⟨S4096x64, .f32⟩
  | .hbm, ⟨76, _⟩ => ⟨S1x64x64, .f32⟩
  | .hbm, ⟨77, _⟩ => ⟨S64x64, .f32⟩
  | .hbm, ⟨78, _⟩ => ⟨S4096x64, .f32⟩
  | .hbm, ⟨79, _⟩ => ⟨S1x4096x4096, .f32⟩
  | .hbm, ⟨80, _⟩ => ⟨S4096x4096, .f32⟩
  | .hbm, ⟨81, _⟩ => ⟨S4096x64, .f32⟩
  | .hbm, ⟨82, _⟩ => ⟨S_, .f32⟩
  | .hbm, ⟨83, _⟩ => ⟨S4096x64, .f32⟩
  | .hbm, ⟨84, _⟩ => ⟨S4096x64, .f32⟩
  | .hbm, ⟨85, _⟩ => ⟨S1x64x64, .f32⟩
  | .hbm, ⟨86, _⟩ => ⟨S64x64, .f32⟩
  | .hbm, ⟨87, _⟩ => ⟨S4096x64, .f32⟩
  | .hbm, ⟨88, _⟩ => ⟨S4096x64, .f32⟩
  | .hbm, ⟨89, _⟩ => ⟨S1x4096x4096, .f32⟩
  | .hbm, ⟨90, _⟩ => ⟨S4096x4096, .f32⟩
  | .hbm, ⟨91, _⟩ => ⟨S4096x64, .f32⟩
  | .hbm, ⟨92, _⟩ => ⟨S1x64x64, .f32⟩
  | .hbm, ⟨93, _⟩ => ⟨S64x64, .f32⟩
  | .hbm, ⟨94, _⟩ => ⟨S4096x64, .f32⟩
  | .hbm, ⟨95, _⟩ => ⟨S1x4096x4096, .f32⟩
  | .hbm, ⟨96, _⟩ => ⟨S4096x4096, .f32⟩
  | .hbm, ⟨97, _⟩ => ⟨S4096x64, .f32⟩
  | .hbm, ⟨98, _⟩ => ⟨S1x64x64, .f32⟩
  | .hbm, ⟨99, _⟩ => ⟨S64x64, .f32⟩
  | .hbm, ⟨100, _⟩ => ⟨S4096x64, .f32⟩
  | .hbm, ⟨101, _⟩ => ⟨S4096x64, .f32⟩
  | .hbm, ⟨102, _⟩ => ⟨S1x4096x64, .f32⟩
  | .hbm, ⟨103, _⟩ => ⟨S1x4096x64, .f32⟩
  | .hbm, ⟨104, _⟩ => ⟨S2x4096x64, .f32⟩
  | .hbm, ⟨105, _⟩ => ⟨S1x2x4096x64, .f32⟩
  | .hbm, ⟨106, _⟩ => ⟨S1x2x4096x64, .f32⟩
  | .hbm, ⟨107, _⟩ => ⟨S1x2x4096x64, .f32⟩
  | .hbm, ⟨108, _⟩ => ⟨S3x2x4096x64, .f32⟩
  | .hbm, ⟨109, _⟩ => ⟨S_, .f32⟩
  | .hbm, ⟨110, _⟩ => ⟨S2x4096x64, .f32⟩
  | .hbm, ⟨111, _⟩ => ⟨S1x4096x64, .f32⟩
  | .hbm, ⟨112, _⟩ => ⟨S4096x64, .f32⟩
  | .hbm, ⟨113, _⟩ => ⟨S4096x64, .f32⟩
  | .hbm, ⟨114, _⟩ => ⟨S4096x64, .f32⟩
  | .hbm, ⟨115, _⟩ => ⟨S1x4096x64, .f32⟩
  | .hbm, ⟨116, _⟩ => ⟨S4096x64, .f32⟩
  | .hbm, ⟨117, _⟩ => ⟨S4096x64, .f32⟩
  | .hbm, ⟨118, _⟩ => ⟨S4096x64, .f32⟩
  | _, _ => ⟨S2x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_0 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_cst_1 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_cst_2 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩

abbrev nD : Nat := 1
abbrev τ : Topo := Topo.v7x

variable {F : FTy → Type} [FloatOps F]

class Facts₀ : Prop where
  slices_S2x4096x64_S1x4096x64_0_0_0 : S2x4096x64.Slices ![0, 0, 0] S1x4096x64
  shapeCasts_S1x4096x64_S4096x64 : S1x4096x64.ShapeCasts S4096x64
  slices_S2x4096x64_S1x4096x64_1_0_0 : S2x4096x64.Slices ![1, 0, 0] S1x4096x64
  slices_S3x4096x4096_S1x4096x4096_0_0_0 : S3x4096x4096.Slices ![0, 0, 0] S1x4096x4096
  shapeCasts_S1x4096x4096_S4096x4096 : S1x4096x4096.ShapeCasts S4096x4096
  slices_S3x64x64_S1x64x64_0_0_0 : S3x64x64.Slices ![0, 0, 0] S1x64x64
  shapeCasts_S1x64x64_S64x64 : S1x64x64.ShapeCasts S64x64
  bcast_S_S4096x64 : S_.BroadcastsInDim S4096x64 (![] : Fin 0 → Fin S4096x64.rank)
  bcast_S4096x64_S1x4096x64_1_2 : S4096x64.BroadcastsInDim S1x4096x64 (![1, 2] : Fin 2 → Fin S1x4096x64.rank)
  concatenates_S1x4096x64_S1x4096x64_S2x4096x64_d0 : Shape.Concatenates [S1x4096x64, S1x4096x64] S2x4096x64 0
  slices_S3x4096x4096_S1x4096x4096_1_0_0 : S3x4096x4096.Slices ![1, 0, 0] S1x4096x4096
  slices_S3x64x64_S1x64x64_1_0_0 : S3x64x64.Slices ![1, 0, 0] S1x64x64
  slices_S3x4096x4096_S1x4096x4096_2_0_0 : S3x4096x4096.Slices ![2, 0, 0] S1x4096x4096
  slices_S3x64x64_S1x64x64_2_0_0 : S3x64x64.Slices ![2, 0, 0] S1x64x64
  bcast_S2x4096x64_S1x2x4096x64_1_2_3 : S2x4096x64.BroadcastsInDim S1x2x4096x64 (![1, 2, 3] : Fin 3 → Fin S1x2x4096x64.rank)
  concatenates_S1x2x4096x64_S1x2x4096x64_S1x2x4096x64_S3x2x4096x64_d0 : Shape.Concatenates [S1x2x4096x64, S1x2x4096x64, S1x2x4096x64] S3x2x4096x64 0
  reducesTo_S3x2x4096x64_S2x4096x64_d0 : S3x2x4096x64.ReducesTo [0] S2x4096x64
  h_S_ : 0 < S_.numel
  bcast_S1x64_S4096x64_0_1 : S1x64.BroadcastsInDim S4096x64 (![0, 1] : Fin 2 → Fin S4096x64.rank)
  dot_S4096x4096_S4096x64_S4096x64_1_0_0_1_n_n_wf : DotDims.WF S4096x4096 S4096x64 S4096x64 [1] [0] [0] [1] [] []
  dot_S4096x64_S64x64_S4096x64_1_0_0_1_n_n_wf : DotDims.WF S4096x64 S64x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

class Facts : Prop extends Facts₀ where

variable [Facts]
-- ==== Proof.KB.Runs.lean ====
/-
  The grid of the convolution kernel is 8 row blocks × 3 Chebyshev terms, point t = 3·(row block) + (term).
  The body branches on the term alone: at term 0 it overwrites the output block with the term's product, at a
  later term it adds the product to the block, and at term 2 it then adds the bias row. This module decides the
  three branch conditions over the 24 points and names the staging memrefs a point runs on.
-/
import proofs.«165200_g38809324486706_cont_8to1_b_1300_8_alg».proof.Proof.Gen.Kernel.Frame
import proofs.«165200_g38809324486706_cont_8to1_b_1300_8_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "term = 0", "term > 0", "term = 2" as the body computes them, decided over the grid. -/
theorem hcond1 : ∀ t : Fin cfg0.N, k0_cond1 (grid0.coords t) = 1#1 ↔ t.val % 3 = 0 :=
  (by decide +kernel : ∀ t : Fin grid0.N, k0_cond1 (grid0.coords t) = 1#1 ↔ t.val % 3 = 0)
theorem hcond2 : ∀ t : Fin cfg0.N, k0_cond2 (grid0.coords t) = 1#1 ↔ t.val % 3 ≠ 0 :=
  (by decide +kernel : ∀ t : Fin grid0.N, k0_cond2 (grid0.coords t) = 1#1 ↔ t.val % 3 ≠ 0)
theorem hcond3 : ∀ t : Fin cfg0.N, k0_cond3 (grid0.coords t) = 1#1 ↔ t.val % 3 = 2 :=
  (by decide +kernel : ∀ t : Fin grid0.N, k0_cond3 (grid0.coords t) = 1#1 ↔ t.val % 3 = 2)

/-- One staging buffer of the output window, through which its contents are stated. -/
abbrev VO5 : View sig .tc .vmem S512x128 .f32 := (Memref.whole cc0_stg5_0 : Memref sig .tc .vmem S512x128 .f32).view

/-- Each window's current staging memref at point `t`, and its wholeness. -/
abbrev ms0 (t : Fin cfg0.N) : Memref sig .tc .vmem S2x4096x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x128 .f32 := win0_5.stage (cfg0.slots t 5)
abbrev hs5 (t : Fin cfg0.N) : (ms5 t).IsWhole := hstage0_5 ((cfg0.slots t 5).cast nbuf0_5)

end Cert.Kernel.Body

end
-- ==== Proof.KB.RunA.lean ====
/-
  The body at a point of term 0: the output block, whatever it held, is overwritten with the term's product.
-/
import proofs.«165200_g38809324486706_cont_8to1_b_1300_8_alg».proof.Proof.KB.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's staging memref in this case (last first), with the
    body's triple on whole staging memrefs: the five inputs at their contents come back as they were. -/
noncomputable def kernelRunA (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole)
    (hc1 : k0_cond1 i = 1#1) (hc2 : ¬k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) :
    { L5 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Body

end
-- ==== Proof.KB.RunB.lean ====
/-
  The body at a point of term 1: the output block, at the running sum, has the term's product added.
-/
import proofs.«165200_g38809324486706_cont_8to1_b_1300_8_alg».proof.Proof.KB.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's staging memref in this case (last first), with the
    body's triple on whole staging memrefs: the five inputs at their contents come back as they were. -/
noncomputable def kernelRunB (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole)
    (hc1 : ¬k0_cond1 i = 1#1) (hc2 : k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) :
    { L5 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Body

end
-- ==== Proof.KB.RunC.lean ====
/-
  The body at a point of term 2: the output block, at the running sum, has the term's product added and then the bias row, broadcast down the rows.
-/
import proofs.«165200_g38809324486706_cont_8to1_b_1300_8_alg».proof.Proof.KB.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's staging memref in this case (last first), with the
    body's triple on whole staging memrefs: the five inputs at their contents come back as they were. -/
noncomputable def kernelRunC (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole)
    (hc1 : ¬k0_cond1 i = 1#1) (hc2 : k0_cond2 i = 1#1) (hc3 : k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) :
    { L5 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Body

end
-- ==== Proof.KB.Frame.lean ====
/-
  The proof data of the convolution kernel's pipeline and its run.

  Point t = 3·(row block) + (term). The output block of a row block stays in its staging buffer over the three
  terms and is written back after term 2; so what the buffer holds after point t is, by recursion on t: at term 0
  the term's product, at term 1 the previous contents plus the term's product, at term 2 the previous contents plus
  the term's product plus the bias row. The inputs' buffers hold their blocks at every point. With these contents the
  body's triple at each point is the case's run, and the launch theorem gives the run of the whole program: it
  terminates, faults nowhere, leaves the five argument arrays as they were, and leaves the output array at the
  blocks written back.
-/
import proofs.«165200_g38809324486706_cont_8to1_b_1300_8_alg».proof.Proof.KB.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores of this case tile the output block, so they cover it. -/
theorem coverA (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : k0_cond1 i = 1#1) (hc2 : ¬k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) (y : S512x128.Idx) :
    ∃ pc ∈ (kernelRunA c i arg2 harg2 arg3 harg3 arg4 harg4 arg5 harg5 arg6 harg6 arg7 harg7 hc1 hc2 hc3 x0 x1 x2 x3 x4).1, y ∈ pc.1.set :=
  View.cover_of_tiledL (kernelRunA c i arg2 harg2 arg3 harg3 arg4 harg4 arg5 harg5 arg6 harg6 arg7 harg7 hc1 hc2 hc3 x0 x1 x2 x3 x4).1 S512x128.size (by sl_kernel_rfl) y

/-- What this case leaves in the output block's staging buffer: its stores read back. -/
def outA (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : k0_cond1 i = 1#1) (hc2 : ¬k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) : Vec F S512x128 .f32 :=
  VO5.read (Elt F) (VO5.writes (Elt F) VO5.junk (kernelRunA c i arg2 harg2 arg3 harg3 arg4 harg4 arg5 harg5 arg6 harg6 arg7 harg7 hc1 hc2 hc3 x0 x1 x2 x3 x4).1)

/-- The stores of this case tile the output block, so they cover it. -/
theorem coverB (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : ¬k0_cond1 i = 1#1) (hc2 : k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) (y : S512x128.Idx) :
    ∃ pc ∈ (kernelRunB c i arg2 harg2 arg3 harg3 arg4 harg4 arg5 harg5 arg6 harg6 arg7 harg7 hc1 hc2 hc3 x0 x1 x2 x3 x4 xo).1, y ∈ pc.1.set :=
  View.cover_of_tiledL (kernelRunB c i arg2 harg2 arg3 harg3 arg4 harg4 arg5 harg5 arg6 harg6 arg7 harg7 hc1 hc2 hc3 x0 x1 x2 x3 x4 xo).1 S512x128.size (by sl_kernel_rfl) y

/-- What this case leaves in the output block's staging buffer: its stores read back. -/
def outB (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : ¬k0_cond1 i = 1#1) (hc2 : k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) : Vec F S512x128 .f32 :=
  VO5.read (Elt F) (VO5.writes (Elt F) VO5.junk (kernelRunB c i arg2 harg2 arg3 harg3 arg4 harg4 arg5 harg5 arg6 harg6 arg7 harg7 hc1 hc2 hc3 x0 x1 x2 x3 x4 xo).1)

/-- The stores of this case tile the output block, so they cover it. -/
theorem coverC (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : ¬k0_cond1 i = 1#1) (hc2 : k0_cond2 i = 1#1) (hc3 : k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) (y : S512x128.Idx) :
    ∃ pc ∈ (kernelRunC c i arg2 harg2 arg3 harg3 arg4 harg4 arg5 harg5 arg6 harg6 arg7 harg7 hc1 hc2 hc3 x0 x1 x2 x3 x4 xo).1, y ∈ pc.1.set :=
  View.cover_of_tiledL (kernelRunC c i arg2 harg2 arg3 harg3 arg4 harg4 arg5 harg5 arg6 harg6 arg7 harg7 hc1 hc2 hc3 x0 x1 x2 x3 x4 xo).1 S512x128.size (by sl_kernel_rfl) y

/-- What this case leaves in the output block's staging buffer: its stores read back. -/
def outC (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : ¬k0_cond1 i = 1#1) (hc2 : k0_cond2 i = 1#1) (hc3 : k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) : Vec F S512x128 .f32 :=
  VO5.read (Elt F) (VO5.writes (Elt F) VO5.junk (kernelRunC c i arg2 harg2 arg3 harg3 arg4 harg4 arg5 harg5 arg6 harg6 arg7 harg7 hc1 hc2 hc3 x0 x1 x2 x3 x4 xo).1)

/-! ## Which case a point is in -/

theorem condsA (t : Fin cfg0.N) (h : t.val % 3 = 0) :
    k0_cond1 (grid0.coords t) = 1#1 ∧ ¬k0_cond2 (grid0.coords t) = 1#1 ∧ ¬k0_cond3 (grid0.coords t) = 1#1 :=
  ⟨(hcond1 t).mpr h, fun h2 => (hcond2 t).mp h2 h, fun h3 => by have := (hcond3 t).mp h3; omega⟩
theorem condsB (t : Fin cfg0.N) (h : t.val % 3 = 1) :
    ¬k0_cond1 (grid0.coords t) = 1#1 ∧ k0_cond2 (grid0.coords t) = 1#1 ∧ ¬k0_cond3 (grid0.coords t) = 1#1 :=
  ⟨fun h1 => by have := (hcond1 t).mp h1; omega, (hcond2 t).mpr (by omega), fun h3 => by have := (hcond3 t).mp h3; omega⟩
theorem condsC (t : Fin cfg0.N) (h : t.val % 3 = 2) :
    ¬k0_cond1 (grid0.coords t) = 1#1 ∧ k0_cond2 (grid0.coords t) = 1#1 ∧ k0_cond3 (grid0.coords t) = 1#1 :=
  ⟨fun h1 => by have := (hcond1 t).mp h1; omega, (hcond2 t).mpr (by omega), (hcond3 t).mpr h⟩

/-- The output window is live at every point: one of the three branches stores into it. -/
theorem idle5 : ∀ t : Fin cfg0.N, cfg0.idle (5 : Fin 6) (cfg0.grid.coords t) = false :=
  (by decide +kernel : ∀ t : Fin grid0.N, idle0 5 (grid0.coords t) = false)
theorem live5 : ∀ i : grid0.Coords, cfg0.idle (5 : Fin 6) i = false := fun i => by
  have h3 : (i 1).val < 3 := (i 1).isLt
  show (!(k0_cond1 i == 1#1) && !(k0_cond2 i == 1#1) && !(k0_cond3 i == 1#1)) = false
  unfold k0_cond1 k0_cond2 k0_cond3
  obtain h | h | h : (i 1).val = 0 ∨ (i 1).val = 1 ∨ (i 1).val = 2 := by omega
  all_goals (simp only [h]; decide)

variable (m : (ℓ : Loc nD τ sig) → Buf (Elt F) ℓ) (ρ : Dev nD → PrngReg)

/-! ## What the output block's buffer holds after each point -/

/-- The three cases at a point of the grid, on the point's memrefs and input blocks. -/
def outA_at (c : Dev nD) (t : Fin cfg0.N) (h : t.val % 3 = 0) : Vec F S512x128 .f32 :=
  outA c (grid0.coords t) (ms0 t) (hs0 t) (ms1 t) (hs1 t) (ms2 t) (hs2 t) (ms3 t) (hs3 t) (ms4 t) (hs4 t) (ms5 t) (hs5 t) (condsA t h).1 (condsA t h).2.1 (condsA t h).2.2 (iblk m c 0 t) (iblk m c 1 t) (iblk m c 2 t) (iblk m c 3 t) (iblk m c 4 t)
def outB_at (c : Dev nD) (t : Fin cfg0.N) (h : t.val % 3 = 1) (xo : Vec F S512x128 .f32) : Vec F S512x128 .f32 :=
  outB c (grid0.coords t) (ms0 t) (hs0 t) (ms1 t) (hs1 t) (ms2 t) (hs2 t) (ms3 t) (hs3 t) (ms4 t) (hs4 t) (ms5 t) (hs5 t) (condsB t h).1 (condsB t h).2.1 (condsB t h).2.2 (iblk m c 0 t) (iblk m c 1 t) (iblk m c 2 t) (iblk m c 3 t) (iblk m c 4 t) xo
def outC_at (c : Dev nD) (t : Fin cfg0.N) (h : t.val % 3 = 2) (xo : Vec F S512x128 .f32) : Vec F S512x128 .f32 :=
  outC c (grid0.coords t) (ms0 t) (hs0 t) (ms1 t) (hs1 t) (ms2 t) (hs2 t) (ms3 t) (hs3 t) (ms4 t) (hs4 t) (ms5 t) (hs5 t) (condsC t h).1 (condsC t h).2.1 (condsC t h).2.2 (iblk m c 0 t) (iblk m c 1 t) (iblk m c 2 t) (iblk m c 3 t) (iblk m c 4 t) xo

/-- The accumulation: the output block's buffer after the body at position `n`. -/
def outsAt (c : Dev nD) : (n : ℕ) → n < cfg0.N → Vec F S512x128 .f32
  | 0, hn => outA_at m c ⟨0, hn⟩ (Nat.zero_mod _)
  | n + 1, hn =>
    if h0 : (n + 1) % 3 = 0 then outA_at m c ⟨n + 1, hn⟩ h0
    else if h1 : (n + 1) % 3 = 1 then outB_at m c ⟨n + 1, hn⟩ h1 (outsAt c n (Nat.lt_of_succ_lt hn))
    else outC_at m c ⟨n + 1, hn⟩ (by show (n + 1) % 3 = 2; omega) (outsAt c n (Nat.lt_of_succ_lt hn))

theorem outsAt_A (c : Dev nD) (t : Fin cfg0.N) (h0 : t.val % 3 = 0) : outsAt m c t.val t.isLt = outA_at m c t h0 := by
  obtain ⟨n, hn⟩ := t
  cases n with
  | zero => exact rfl
  | succ n => exact (dif_pos h0).trans rfl

theorem outsAt_B (c : Dev nD) (t : Fin cfg0.N) (h1 : t.val % 3 = 1) :
    outsAt m c t.val t.isLt = outB_at m c t h1 (outsAt m c (t.val - 1) (Nat.lt_of_le_of_lt (Nat.sub_le _ _) t.isLt)) := by
  obtain ⟨n, hn⟩ := t
  cases n with
  | zero => exact absurd h1 (by show ¬(0 % 3 = 1); decide)
  | succ n => exact (dif_neg (by dsimp only at h1; omega)).trans ((dif_pos h1).trans rfl)

theorem outsAt_C (c : Dev nD) (t : Fin cfg0.N) (h2 : t.val % 3 = 2) :
    outsAt m c t.val t.isLt = outC_at m c t h2 (outsAt m c (t.val - 1) (Nat.lt_of_le_of_lt (Nat.sub_le _ _) t.isLt)) := by
  obtain ⟨n, hn⟩ := t
  cases n with
  | zero => exact absurd h2 (by show ¬(0 % 3 = 2); decide)
  | succ n => exact (dif_neg (by dsimp only at h2; omega)).trans ((dif_neg (by dsimp only at h2; omega)).trans rfl)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- At a point of a later term the output block's buffer holds what the point before left: the block was not
    written back between (that happens after term 2 only), the window is live and its blocks tile the array. -/
theorem before5 (c : Dev nD) (t : Fin cfg0.N) (h0 : ¬t.val % 3 = 0) (d) :
    (dats m 0 c).before 5 t d = (outsAt m c (t.val - 1) (Nat.lt_of_le_of_lt (Nat.sub_le _ _) t.isLt)) := by
  have hN : t.val < 24 := lt_of_lt_of_eq t.isLt (show cfg0.N = 24 from N_0)
  rw [Dat.before_out_kept _ 5 rfl t (by omega) (Bool.eq_false_iff.mpr fun h => by have := (flush0_5 _).mp h; dsimp only at this; omega)
    live5 (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the point's term says which case runs; at a later
    term the output block's buffer holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  have hN : t.val < 24 := lt_of_lt_of_eq t.isLt (show cfg0.N = 24 from N_0)
  by_cases h0 : t.val % 3 = 0
  · rw [outsAt_A m c t h0]
    unfold outA_at outA
    iintro ⟨HΦ, Ho, ⟨%d0, H0⟩, ⟨%d1, H1⟩, ⟨%d2, H2⟩, ⟨%d3, H3⟩, ⟨%d4, H4⟩, ⟨%d5, H5⟩⟩
    iapply ((kernelRunA c (grid0.coords t) _ _ _ _ _ _ _ _ _ _ _ _ (condsA t h0).1 (condsA t h0).2.1 (condsA t h0).2.2 (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c _ _ _ _ _ _ _ _ _ _ _ _ _ _ _ _ _ _ _ _ _)
  · by_cases h1 : t.val % 3 = 1
    · rw [outsAt_B m c t h1]
      simp only [before5 m c t h0]
      unfold outB_at outB
      iintro ⟨HΦ, Ho, ⟨%d0, H0⟩, ⟨%d1, H1⟩, ⟨%d2, H2⟩, ⟨%d3, H3⟩, ⟨%d4, H4⟩, ⟨%d5, H5⟩⟩
      iapply ((kernelRunB c (grid0.coords t) _ _ _ _ _ _ _ _ _ _ _ _ (condsB t h1).1 (condsB t h1).2.1 (condsB t h1).2.2 (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverB c _ _ _ _ _ _ _ _ _ _ _ _ _ _ _ _ _ _ _ _ _ _)
    · have h2 : t.val % 3 = 2 := by omega
      rw [outsAt_C m c t h2]
      simp only [before5 m c t h0]
      unfold outC_at outC
      iintro ⟨HΦ, Ho, ⟨%d0, H0⟩, ⟨%d1, H1⟩, ⟨%d2, H2⟩, ⟨%d3, H3⟩, ⟨%d4, H4⟩, ⟨%d5, H5⟩⟩
      iapply ((kernelRunC c (grid0.coords t) _ _ _ _ _ _ _ _ _ _ _ _ (condsC t h2).1 (condsC t h2).2.1 (condsC t h2).2.2 (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [idle5 t]
  exact sound_body m c t

/-! ## The run and the frame -/

set_option backward.isDefEq.respectTransparency.types false in
/-- Every weakly fair execution of the program terminates without a fault; every array of the pipeline ends at what
    the proof data says, and the two results at the slices the later lines take of the output array. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KI.Runs.lean ====
/-
  The grid of the convolution kernel is 8 row blocks × 3 Chebyshev terms, point t = 3·(row block) + (term).
  The body branches on the term alone: at term 0 it overwrites the output block with the term's product, at a
  later term it adds the product to the block, and at term 2 it then adds the bias row. This module decides the
  three branch conditions over the 24 points and names the staging memrefs a point runs on.
-/
import proofs.«165200_g38809324486706_cont_8to1_b_1300_8_alg».proof.Proof.Gen.KernelIdeal.Frame
import proofs.«165200_g38809324486706_cont_8to1_b_1300_8_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "term = 0", "term > 0", "term = 2" as the body computes them, decided over the grid. -/
theorem hcond1 : ∀ t : Fin cfg0.N, k0_cond1 (grid0.coords t) = 1#1 ↔ t.val % 3 = 0 :=
  (by decide +kernel : ∀ t : Fin grid0.N, k0_cond1 (grid0.coords t) = 1#1 ↔ t.val % 3 = 0)
theorem hcond2 : ∀ t : Fin cfg0.N, k0_cond2 (grid0.coords t) = 1#1 ↔ t.val % 3 ≠ 0 :=
  (by decide +kernel : ∀ t : Fin grid0.N, k0_cond2 (grid0.coords t) = 1#1 ↔ t.val % 3 ≠ 0)
theorem hcond3 : ∀ t : Fin cfg0.N, k0_cond3 (grid0.coords t) = 1#1 ↔ t.val % 3 = 2 :=
  (by decide +kernel : ∀ t : Fin grid0.N, k0_cond3 (grid0.coords t) = 1#1 ↔ t.val % 3 = 2)

/-- One staging buffer of the output window, through which its contents are stated. -/
abbrev VO5 : View sig .tc .vmem S512x128 .f32 := (Memref.whole cc0_stg5_0 : Memref sig .tc .vmem S512x128 .f32).view

/-- Each window's current staging memref at point `t`, and its wholeness. -/
abbrev ms0 (t : Fin cfg0.N) : Memref sig .tc .vmem S2x4096x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x128 .f32 := win0_5.stage (cfg0.slots t 5)
abbrev hs5 (t : Fin cfg0.N) : (ms5 t).IsWhole := hstage0_5 ((cfg0.slots t 5).cast nbuf0_5)

end Cert.KernelIdeal.Body

end
-- ==== Proof.KI.RunA.lean ====
/-
  The body at a point of term 0: the output block, whatever it held, is overwritten with the term's product.
-/
import proofs.«165200_g38809324486706_cont_8to1_b_1300_8_alg».proof.Proof.KI.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's staging memref in this case (last first), with the
    body's triple on whole staging memrefs: the five inputs at their contents come back as they were. -/
noncomputable def kernelRunA (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole)
    (hc1 : k0_cond1 i = 1#1) (hc2 : ¬k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) :
    { L5 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Body

end
-- ==== Proof.KI.RunB.lean ====
/-
  The body at a point of term 1: the output block, at the running sum, has the term's product added.
-/
import proofs.«165200_g38809324486706_cont_8to1_b_1300_8_alg».proof.Proof.KI.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's staging memref in this case (last first), with the
    body's triple on whole staging memrefs: the five inputs at their contents come back as they were. -/
noncomputable def kernelRunB (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole)
    (hc1 : ¬k0_cond1 i = 1#1) (hc2 : k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) :
    { L5 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Body

end
-- ==== Proof.KI.RunC.lean ====
/-
  The body at a point of term 2: the output block, at the running sum, has the term's product added and then the bias row, broadcast down the rows.
-/
import proofs.«165200_g38809324486706_cont_8to1_b_1300_8_alg».proof.Proof.KI.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's staging memref in this case (last first), with the
    body's triple on whole staging memrefs: the five inputs at their contents come back as they were. -/
noncomputable def kernelRunC (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole)
    (hc1 : ¬k0_cond1 i = 1#1) (hc2 : k0_cond2 i = 1#1) (hc3 : k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) :
    { L5 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Body

end
-- ==== Proof.KI.Frame.lean ====
/-
  The proof data of the convolution kernel's pipeline and its run.

  Point t = 3·(row block) + (term). The output block of a row block stays in its staging buffer over the three
  terms and is written back after term 2; so what the buffer holds after point t is, by recursion on t: at term 0
  the term's product, at term 1 the previous contents plus the term's product, at term 2 the previous contents plus
  the term's product plus the bias row. The inputs' buffers hold their blocks at every point. With these contents the
  body's triple at each point is the case's run, and the launch theorem gives the run of the whole program: it
  terminates, faults nowhere, leaves the five argument arrays as they were, and leaves the output array at the
  blocks written back.
-/
import proofs.«165200_g38809324486706_cont_8to1_b_1300_8_alg».proof.Proof.KI.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores of this case tile the output block, so they cover it. -/
theorem coverA (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : k0_cond1 i = 1#1) (hc2 : ¬k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) (y : S512x128.Idx) :
    ∃ pc ∈ (kernelRunA c i arg2 harg2 arg3 harg3 arg4 harg4 arg5 harg5 arg6 harg6 arg7 harg7 hc1 hc2 hc3 x0 x1 x2 x3 x4).1, y ∈ pc.1.set :=
  View.cover_of_tiledL (kernelRunA c i arg2 harg2 arg3 harg3 arg4 harg4 arg5 harg5 arg6 harg6 arg7 harg7 hc1 hc2 hc3 x0 x1 x2 x3 x4).1 S512x128.size (by sl_kernel_rfl) y

/-- What this case leaves in the output block's staging buffer: its stores read back. -/
def outA (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : k0_cond1 i = 1#1) (hc2 : ¬k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) : Vec F S512x128 .f32 :=
  VO5.read (Elt F) (VO5.writes (Elt F) VO5.junk (kernelRunA c i arg2 harg2 arg3 harg3 arg4 harg4 arg5 harg5 arg6 harg6 arg7 harg7 hc1 hc2 hc3 x0 x1 x2 x3 x4).1)

/-- The stores of this case tile the output block, so they cover it. -/
theorem coverB (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : ¬k0_cond1 i = 1#1) (hc2 : k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) (y : S512x128.Idx) :
    ∃ pc ∈ (kernelRunB c i arg2 harg2 arg3 harg3 arg4 harg4 arg5 harg5 arg6 harg6 arg7 harg7 hc1 hc2 hc3 x0 x1 x2 x3 x4 xo).1, y ∈ pc.1.set :=
  View.cover_of_tiledL (kernelRunB c i arg2 harg2 arg3 harg3 arg4 harg4 arg5 harg5 arg6 harg6 arg7 harg7 hc1 hc2 hc3 x0 x1 x2 x3 x4 xo).1 S512x128.size (by sl_kernel_rfl) y

/-- What this case leaves in the output block's staging buffer: its stores read back. -/
def outB (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : ¬k0_cond1 i = 1#1) (hc2 : k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) : Vec F S512x128 .f32 :=
  VO5.read (Elt F) (VO5.writes (Elt F) VO5.junk (kernelRunB c i arg2 harg2 arg3 harg3 arg4 harg4 arg5 harg5 arg6 harg6 arg7 harg7 hc1 hc2 hc3 x0 x1 x2 x3 x4 xo).1)

/-- The stores of this case tile the output block, so they cover it. -/
theorem coverC (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : ¬k0_cond1 i = 1#1) (hc2 : k0_cond2 i = 1#1) (hc3 : k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) (y : S512x128.Idx) :
    ∃ pc ∈ (kernelRunC c i arg2 harg2 arg3 harg3 arg4 harg4 arg5 harg5 arg6 harg6 arg7 harg7 hc1 hc2 hc3 x0 x1 x2 x3 x4 xo).1, y ∈ pc.1.set :=
  View.cover_of_tiledL (kernelRunC c i arg2 harg2 arg3 harg3 arg4 harg4 arg5 harg5 arg6 harg6 arg7 harg7 hc1 hc2 hc3 x0 x1 x2 x3 x4 xo).1 S512x128.size (by sl_kernel_rfl) y

/-- What this case leaves in the output block's staging buffer: its stores read back. -/
def outC (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : ¬k0_cond1 i = 1#1) (hc2 : k0_cond2 i = 1#1) (hc3 : k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) : Vec F S512x128 .f32 :=
  VO5.read (Elt F) (VO5.writes (Elt F) VO5.junk (kernelRunC c i arg2 harg2 arg3 harg3 arg4 harg4 arg5 harg5 arg6 harg6 arg7 harg7 hc1 hc2 hc3 x0 x1 x2 x3 x4 xo).1)

/-! ## Which case a point is in -/

theorem condsA (t : Fin cfg0.N) (h : t.val % 3 = 0) :
    k0_cond1 (grid0.coords t) = 1#1 ∧ ¬k0_cond2 (grid0.coords t) = 1#1 ∧ ¬k0_cond3 (grid0.coords t) = 1#1 :=
  ⟨(hcond1 t).mpr h, fun h2 => (hcond2 t).mp h2 h, fun h3 => by have := (hcond3 t).mp h3; omega⟩
theorem condsB (t : Fin cfg0.N) (h : t.val % 3 = 1) :
    ¬k0_cond1 (grid0.coords t) = 1#1 ∧ k0_cond2 (grid0.coords t) = 1#1 ∧ ¬k0_cond3 (grid0.coords t) = 1#1 :=
  ⟨fun h1 => by have := (hcond1 t).mp h1; omega, (hcond2 t).mpr (by omega), fun h3 => by have := (hcond3 t).mp h3; omega⟩
theorem condsC (t : Fin cfg0.N) (h : t.val % 3 = 2) :
    ¬k0_cond1 (grid0.coords t) = 1#1 ∧ k0_cond2 (grid0.coords t) = 1#1 ∧ k0_cond3 (grid0.coords t) = 1#1 :=
  ⟨fun h1 => by have := (hcond1 t).mp h1; omega, (hcond2 t).mpr (by omega), (hcond3 t).mpr h⟩

/-- The output window is live at every point: one of the three branches stores into it. -/
theorem idle5 : ∀ t : Fin cfg0.N, cfg0.idle (5 : Fin 6) (cfg0.grid.coords t) = false :=
  (by decide +kernel : ∀ t : Fin grid0.N, idle0 5 (grid0.coords t) = false)
theorem live5 : ∀ i : grid0.Coords, cfg0.idle (5 : Fin 6) i = false := fun i => by
  have h3 : (i 1).val < 3 := (i 1).isLt
  show (!(k0_cond1 i == 1#1) && !(k0_cond2 i == 1#1) && !(k0_cond3 i == 1#1)) = false
  unfold k0_cond1 k0_cond2 k0_cond3
  obtain h | h | h : (i 1).val = 0 ∨ (i 1).val = 1 ∨ (i 1).val = 2 := by omega
  all_goals (simp only [h]; decide)

variable (m : (ℓ : Loc nD τ sig) → Buf (Elt F) ℓ) (ρ : Dev nD → PrngReg)

/-! ## What the output block's buffer holds after each point -/

/-- The three cases at a point of the grid, on the point's memrefs and input blocks. -/
def outA_at (c : Dev nD) (t : Fin cfg0.N) (h : t.val % 3 = 0) : Vec F S512x128 .f32 :=
  outA c (grid0.coords t) (ms0 t) (hs0 t) (ms1 t) (hs1 t) (ms2 t) (hs2 t) (ms3 t) (hs3 t) (ms4 t) (hs4 t) (ms5 t) (hs5 t) (condsA t h).1 (condsA t h).2.1 (condsA t h).2.2 (iblk m c 0 t) (iblk m c 1 t) (iblk m c 2 t) (iblk m c 3 t) (iblk m c 4 t)
def outB_at (c : Dev nD) (t : Fin cfg0.N) (h : t.val % 3 = 1) (xo : Vec F S512x128 .f32) : Vec F S512x128 .f32 :=
  outB c (grid0.coords t) (ms0 t) (hs0 t) (ms1 t) (hs1 t) (ms2 t) (hs2 t) (ms3 t) (hs3 t) (ms4 t) (hs4 t) (ms5 t) (hs5 t) (condsB t h).1 (condsB t h).2.1 (condsB t h).2.2 (iblk m c 0 t) (iblk m c 1 t) (iblk m c 2 t) (iblk m c 3 t) (iblk m c 4 t) xo
def outC_at (c : Dev nD) (t : Fin cfg0.N) (h : t.val % 3 = 2) (xo : Vec F S512x128 .f32) : Vec F S512x128 .f32 :=
  outC c (grid0.coords t) (ms0 t) (hs0 t) (ms1 t) (hs1 t) (ms2 t) (hs2 t) (ms3 t) (hs3 t) (ms4 t) (hs4 t) (ms5 t) (hs5 t) (condsC t h).1 (condsC t h).2.1 (condsC t h).2.2 (iblk m c 0 t) (iblk m c 1 t) (iblk m c 2 t) (iblk m c 3 t) (iblk m c 4 t) xo

/-- The accumulation: the output block's buffer after the body at position `n`. -/
def outsAt (c : Dev nD) : (n : ℕ) → n < cfg0.N → Vec F S512x128 .f32
  | 0, hn => outA_at m c ⟨0, hn⟩ (Nat.zero_mod _)
  | n + 1, hn =>
    if h0 : (n + 1) % 3 = 0 then outA_at m c ⟨n + 1, hn⟩ h0
    else if h1 : (n + 1) % 3 = 1 then outB_at m c ⟨n + 1, hn⟩ h1 (outsAt c n (Nat.lt_of_succ_lt hn))
    else outC_at m c ⟨n + 1, hn⟩ (by show (n + 1) % 3 = 2; omega) (outsAt c n (Nat.lt_of_succ_lt hn))

theorem outsAt_A (c : Dev nD) (t : Fin cfg0.N) (h0 : t.val % 3 = 0) : outsAt m c t.val t.isLt = outA_at m c t h0 := by
  obtain ⟨n, hn⟩ := t
  cases n with
  | zero => exact rfl
  | succ n => exact (dif_pos h0).trans rfl

theorem outsAt_B (c : Dev nD) (t : Fin cfg0.N) (h1 : t.val % 3 = 1) :
    outsAt m c t.val t.isLt = outB_at m c t h1 (outsAt m c (t.val - 1) (Nat.lt_of_le_of_lt (Nat.sub_le _ _) t.isLt)) := by
  obtain ⟨n, hn⟩ := t
  cases n with
  | zero => exact absurd h1 (by show ¬(0 % 3 = 1); decide)
  | succ n => exact (dif_neg (by dsimp only at h1; omega)).trans ((dif_pos h1).trans rfl)

theorem outsAt_C (c : Dev nD) (t : Fin cfg0.N) (h2 : t.val % 3 = 2) :
    outsAt m c t.val t.isLt = outC_at m c t h2 (outsAt m c (t.val - 1) (Nat.lt_of_le_of_lt (Nat.sub_le _ _) t.isLt)) := by
  obtain ⟨n, hn⟩ := t
  cases n with
  | zero => exact absurd h2 (by show ¬(0 % 3 = 2); decide)
  | succ n => exact (dif_neg (by dsimp only at h2; omega)).trans ((dif_neg (by dsimp only at h2; omega)).trans rfl)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- At a point of a later term the output block's buffer holds what the point before left: the block was not
    written back between (that happens after term 2 only), the window is live and its blocks tile the array. -/
theorem before5 (c : Dev nD) (t : Fin cfg0.N) (h0 : ¬t.val % 3 = 0) (d) :
    (dats m 0 c).before 5 t d = (outsAt m c (t.val - 1) (Nat.lt_of_le_of_lt (Nat.sub_le _ _) t.isLt)) := by
  have hN : t.val < 24 := lt_of_lt_of_eq t.isLt (show cfg0.N = 24 from N_0)
  rw [Dat.before_out_kept _ 5 rfl t (by omega) (Bool.eq_false_iff.mpr fun h => by have := (flush0_5 _).mp h; dsimp only at this; omega)
    live5 (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the point's term says which case runs; at a later
    term the output block's buffer holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  have hN : t.val < 24 := lt_of_lt_of_eq t.isLt (show cfg0.N = 24 from N_0)
  by_cases h0 : t.val % 3 = 0
  · rw [outsAt_A m c t h0]
    unfold outA_at outA
    iintro ⟨HΦ, Ho, ⟨%d0, H0⟩, ⟨%d1, H1⟩, ⟨%d2, H2⟩, ⟨%d3, H3⟩, ⟨%d4, H4⟩, ⟨%d5, H5⟩⟩
    iapply ((kernelRunA c (grid0.coords t) _ _ _ _ _ _ _ _ _ _ _ _ (condsA t h0).1 (condsA t h0).2.1 (condsA t h0).2.2 (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c _ _ _ _ _ _ _ _ _ _ _ _ _ _ _ _ _ _ _ _ _)
  · by_cases h1 : t.val % 3 = 1
    · rw [outsAt_B m c t h1]
      simp only [before5 m c t h0]
      unfold outB_at outB
      iintro ⟨HΦ, Ho, ⟨%d0, H0⟩, ⟨%d1, H1⟩, ⟨%d2, H2⟩, ⟨%d3, H3⟩, ⟨%d4, H4⟩, ⟨%d5, H5⟩⟩
      iapply ((kernelRunB c (grid0.coords t) _ _ _ _ _ _ _ _ _ _ _ _ (condsB t h1).1 (condsB t h1).2.1 (condsB t h1).2.2 (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverB c _ _ _ _ _ _ _ _ _ _ _ _ _ _ _ _ _ _ _ _ _ _)
    · have h2 : t.val % 3 = 2 := by omega
      rw [outsAt_C m c t h2]
      simp only [before5 m c t h0]
      unfold outC_at outC
      iintro ⟨HΦ, Ho, ⟨%d0, H0⟩, ⟨%d1, H1⟩, ⟨%d2, H2⟩, ⟨%d3, H3⟩, ⟨%d4, H4⟩, ⟨%d5, H5⟩⟩
      iapply ((kernelRunC c (grid0.coords t) _ _ _ _ _ _ _ _ _ _ _ _ (condsC t h2).1 (condsC t h2).2.1 (condsC t h2).2.2 (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [idle5 t]
  exact sound_body m c t

/-! ## The run and the frame -/

set_option backward.isDefEq.respectTransparency.types false in
/-- Every weakly fair execution of the program terminates without a fault; every array of the pipeline ends at what
    the proof data says, and the two results at the slices the later lines take of the output array. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.KI.Pieces.lean ====
/-
  What each case of the convolution kernel's body leaves in the output block, as the body's arithmetic applied to
  the blocks it loaded: at term 0 the term's product; at term 1 the previous contents plus the product; at term 2
  that sum plus the bias row. The body reads the feature array's two parts (real, imaginary) as two loads of one
  staged array; every other load and every store goes through a whole block.
-/
import proofs.«165200_g38809324486706_cont_8to1_b_1300_8_alg».proof.Proof.KI.Frame
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Part `p` (0 real, 1 imaginary) of the feature array, as a [1, 4096, 64] block. -/
def partX (x0 : Vec F S2x4096x64 .f32) (p : Fin 2) : Vec F S1x4096x64 .f32 := fun j => x0 (ix3 p (j 1) (j 2))

theorem ld_part0 (x0 : Vec F S2x4096x64 .f32) (inb : ∀ a, (![0, 0, 0] : Fin 3 → Nat) a + (![1, 4096, 64] : Fin 3 → Nat) a ≤ S2x4096x64.size a) :
    View.ld x0 (Rect.unit (s := S2x4096x64) ![0, 0, 0] ![1, 4096, 64] inb) = partX x0 0 := by
  funext j
  show x0 ((Rect.unit (s := S2x4096x64) ![0, 0, 0] ![1, 4096, 64] inb).emb j) = x0 (ix3 0 (j 1) (j 2))
  congr 1; funext a; apply Fin.ext
  have h0 : (j 0).val < 1 := (j 0).isLt
  match a with
  | ⟨0, _⟩ => show 0 + 1 * (j 0).val = 0; omega
  | ⟨1, _⟩ => show 0 + 1 * (j 1).val = (j 1).val; omega
  | ⟨2, _⟩ => show 0 + 1 * (j 2).val = (j 2).val; omega

theorem ld_part1 (x0 : Vec F S2x4096x64 .f32) (inb : ∀ a, (![1, 0, 0] : Fin 3 → Nat) a + (![1, 4096, 64] : Fin 3 → Nat) a ≤ S2x4096x64.size a) :
    View.ld x0 (Rect.unit (s := S2x4096x64) ![1, 0, 0] ![1, 4096, 64] inb) = partX x0 1 := by
  funext j
  show x0 ((Rect.unit (s := S2x4096x64) ![1, 0, 0] ![1, 4096, 64] inb).emb j) = x0 (ix3 1 (j 1) (j 2))
  congr 1; funext a; apply Fin.ext
  have h0 : (j 0).val < 1 := (j 0).isLt
  match a with
  | ⟨0, _⟩ => show 1 + 1 * (j 0).val = 1; omega
  | ⟨1, _⟩ => show 0 + 1 * (j 1).val = (j 1).val; omega
  | ⟨2, _⟩ => show 0 + 1 * (j 2).val = (j 2).val; omega

/-- Term 0: the output block is the term's product. -/
theorem outA_eq (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : k0_cond1 i = 1#1) (hc2 : ¬k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) :
    outA c i arg2 harg2 arg3 harg3 arg4 harg4 arg5 harg5 arg6 harg6 arg7 harg7 hc1 hc2 hc3 x0 x1 x2 x3 x4 = k0_pay2 (partX x0 0) (partX x0 1) x3 x1 x2 := by
  unfold outA
  rw [View.read_writes_eq_canon _ _ _ (coverA c i arg2 harg2 arg3 harg3 arg4 harg4 arg5 harg5 arg6 harg6 arg7 harg7 hc1 hc2 hc3 x0 x1 x2 x3 x4)]
  unfold kernelRunA
  dsimp only
  rw [View.canon_unit_zero hz2]
  simp only [View.readAt_eq_ld, harg2.read_unread, harg3.read_unread, harg4.read_unread, harg5.read_unread, harg6.read_unread, harg7.read_unread,
    View.ld_unit_zero (S := S1x512x4096) hz3, View.ld_unit_zero (S := S1x64x64) hz3, View.ld_unit_zero (S := S512x128) hz2, View.ld_unit_zero (S := S1x64) hz2]
  rw [ld_part0, ld_part1]

/-- Term 1: the previous contents plus the term's product. -/
theorem outB_eq (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : ¬k0_cond1 i = 1#1) (hc2 : k0_cond2 i = 1#1) (hc3 : ¬k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) :
    outB c i arg2 harg2 arg3 harg3 arg4 harg4 arg5 harg5 arg6 harg6 arg7 harg7 hc1 hc2 hc3 x0 x1 x2 x3 x4 xo = k0_pay3 (partX x0 0) (partX x0 1) x3 x1 x2 xo := by
  unfold outB
  rw [View.read_writes_eq_canon _ _ _ (coverB c i arg2 harg2 arg3 harg3 arg4 harg4 arg5 harg5 arg6 harg6 arg7 harg7 hc1 hc2 hc3 x0 x1 x2 x3 x4 xo)]
  unfold kernelRunB
  dsimp only
  rw [View.canon_unit_zero hz2]
  simp only [View.readAt_eq_ld, harg2.read_unread, harg3.read_unread, harg4.read_unread, harg5.read_unread, harg6.read_unread, harg7.read_unread,
    View.ld_unit_zero (S := S1x512x4096) hz3, View.ld_unit_zero (S := S1x64x64) hz3, View.ld_unit_zero (S := S512x128) hz2, View.ld_unit_zero (S := S1x64) hz2]
  rw [ld_part0, ld_part1]

/-- Term 2: the previous contents plus the term's product, then the bias row added to every row. -/
theorem outC_eq (c : Dev nD) (i : grid0.Coords) (arg2 : Memref sig .tc .vmem S2x4096x64 .f32) (harg2 : arg2.IsWhole) (arg3 : Memref sig .tc .vmem S1x512x4096 .f32) (harg3 : arg3.IsWhole) (arg4 : Memref sig .tc .vmem S1x512x4096 .f32) (harg4 : arg4.IsWhole) (arg5 : Memref sig .tc .vmem S1x64x64 .f32) (harg5 : arg5.IsWhole) (arg6 : Memref sig .tc .vmem S1x64 .f32) (harg6 : arg6.IsWhole) (arg7 : Memref sig .tc .vmem S512x128 .f32) (harg7 : arg7.IsWhole) (hc1 : ¬k0_cond1 i = 1#1) (hc2 : k0_cond2 i = 1#1) (hc3 : k0_cond3 i = 1#1)
    (x0 : Vec F S2x4096x64 .f32) (x1 : Vec F S1x512x4096 .f32) (x2 : Vec F S1x512x4096 .f32) (x3 : Vec F S1x64x64 .f32) (x4 : Vec F S1x64 .f32) (xo : Vec F S512x128 .f32) :
    outC c i arg2 harg2 arg3 harg3 arg4 harg4 arg5 harg5 arg6 harg6 arg7 harg7 hc1 hc2 hc3 x0 x1 x2 x3 x4 xo = k0_pay1 x4 x4 (k0_pay3 (partX x0 0) (partX x0 1) x3 x1 x2 xo) := by
  unfold outC
  rw [View.read_writes_eq_canon _ _ _ (coverC c i arg2 harg2 arg3 harg3 arg4 harg4 arg5 harg5 arg6 harg6 arg7 harg7 hc1 hc2 hc3 x0 x1 x2 x3 x4 xo)]
  unfold kernelRunC
  dsimp only
  sl_unfold_words
  rw [View.canon_cons_unit_zero (S := S512x128) hz2, View.readCov_unit_zero (S := S512x128) _ hz2]
  simp only [View.readAt_eq_ld, harg2.read_unread, harg3.read_unread, harg4.read_unread, harg5.read_unread, harg6.read_unread, harg7.read_unread,
    View.ld_unit_zero (S := S1x512x4096) hz3, View.ld_unit_zero (S := S1x64x64) hz3, View.ld_unit_zero (S := S512x128) hz2, View.ld_unit_zero (S := S1x64) hz2]
  rw [ld_part0, ld_part1]

variable (m : (ℓ : Loc nD τ sig) → Buf (Elt F) ℓ)

/-- The term's product at point `t`, of the point's blocks. -/
def prodAt (c : Dev nD) (t : Fin cfg0.N) : Vec F S512x128 .f32 :=
  k0_pay2 (partX (iblk m c 0 t) 0) (partX (iblk m c 0 t) 1) (iblk m c 3 t) (iblk m c 1 t) (iblk m c 2 t)

theorem outsAt_A' (c : Dev nD) (t : Fin cfg0.N) (h0 : t.val % 3 = 0) : outsAt m c t.val t.isLt = prodAt m c t := by
  rw [outsAt_A m c t h0]; unfold outA_at; rw [outA_eq]; rfl

theorem outsAt_B' (c : Dev nD) (t : Fin cfg0.N) (h1 : t.val % 3 = 1) :
    outsAt m c t.val t.isLt = k0_pay3 (partX (iblk m c 0 t) 0) (partX (iblk m c 0 t) 1) (iblk m c 3 t) (iblk m c 1 t) (iblk m c 2 t)
      (outsAt m c (t.val - 1) (Nat.lt_of_le_of_lt (Nat.sub_le _ _) t.isLt)) := by
  rw [outsAt_B m c t h1]; unfold outB_at; rw [outB_eq]

theorem outsAt_C' (c : Dev nD) (t : Fin cfg0.N) (h2 : t.val % 3 = 2) :
    outsAt m c t.val t.isLt = k0_pay1 (iblk m c 4 t) (iblk m c 4 t)
      (k0_pay3 (partX (iblk m c 0 t) 0) (partX (iblk m c 0 t) 1) (iblk m c 3 t) (iblk m c 1 t) (iblk m c 2 t)
        (outsAt m c (t.val - 1) (Nat.lt_of_le_of_lt (Nat.sub_le _ _) t.isLt))) := by
  rw [outsAt_C m c t h2]; unfold outC_at; rw [outC_eq]

end Cert.KernelIdeal.Body

end
-- ==== Proof.Spec.lean ====
import Mathlib
import Idealize.ShloMosaic.PureOps.Ideal
import Idealize.ShloMosaic.Lib.ValueIdx

/-!
The Chebyshev spectral graph convolution, as one real-valued function of its five argument arrays.

With node features X = (X₀, X₁) (real and imaginary parts, each 4096 × 64), Laplacians A_i + √-1·B_i (each
4096 × 4096, i = 0, 1, 2), weights W_i (64 × 64) and a bias row b (64 entries), the two results are

  re(r, c) = Σ_i ( Σ_n A_i(r,n) · (Σ_k X₀(n,k) · W_i(k,c)) − Σ_n B_i(r,n) · (Σ_k X₁(n,k) · W_i(k,c)) ) + b(c)
  im(r, c) = Σ_i ( Σ_n A_i(r,n) · (Σ_k X₁(n,k) · W_i(k,c)) + Σ_n B_i(r,n) · (Σ_k X₀(n,k) · W_i(k,c)) ) + b(c).

The arrays are extended-real valued; the specification reads each entry through `EReal.toReal`, which is the
entry itself wherever the entry is finite.
-/

noncomputable section

namespace Cert.Spec

open Idealize.ShloMosaic Idealize.ShloMosaic.ValueIdx

abbrev SX : Shape := ⟨3, ![2, 4096, 64]⟩
abbrev SL : Shape := ⟨3, ![3, 4096, 4096]⟩
abbrev SW : Shape := ⟨3, ![3, 64, 64]⟩
abbrev SB : Shape := ⟨2, ![1, 64]⟩
abbrev SO : Shape := ⟨2, ![4096, 64]⟩

/-- An array all of whose entries are finite. -/
def Fin' {S : Shape} (x : S.Idx → EReal) : Prop := ∀ j, x j ≠ ⊤ ∧ x j ≠ ⊥

/-- The feature matrix of part `p` times the `i`-th weight matrix, entry (n, c). -/
def xw (X : SX.Idx → EReal) (W : SW.Idx → EReal) (p : Fin 2) (i : Fin 3) (n : Fin 4096) (c : Fin 64) : ℝ :=
  ∑ k : Fin 64, (X (ix3 p n k)).toReal * (W (ix3 i k c)).toReal

/-- Row `r` of the `i`-th matrix of `L` against column `c` of `xw … p i`. -/
def lxw (L : SL.Idx → EReal) (X : SX.Idx → EReal) (W : SW.Idx → EReal) (p : Fin 2) (i : Fin 3) (r : Fin 4096) (c : Fin 64) : ℝ :=
  ∑ n : Fin 4096, (L (ix3 i r n)).toReal * xw X W p i n c

/-- The real part of the convolution at (r, c). -/
def outRe (X : SX.Idx → EReal) (A B : SL.Idx → EReal) (W : SW.Idx → EReal) (b : SB.Idx → EReal) (r : Fin 4096) (c : Fin 64) : ℝ :=
  (∑ i : Fin 3, (lxw A X W 0 i r c - lxw B X W 1 i r c)) + (b (ix2 0 c)).toReal

/-- The imaginary part of the convolution at (r, c). -/
def outIm (X : SX.Idx → EReal) (A B : SL.Idx → EReal) (W : SW.Idx → EReal) (b : SB.Idx → EReal) (r : Fin 4096) (c : Fin 64) : ℝ :=
  (∑ i : Fin 3, (lxw A X W 1 i r c + lxw B X W 0 i r c)) + (b (ix2 0 c)).toReal

/-- A finite extended real is the cast of its real part. -/
theorem coe_toReal_of_fin {S : Shape} {x : S.Idx → EReal} (h : Fin' x) (j : S.Idx) : ((x j).toReal : EReal) = x j :=
  EReal.coe_toReal (h j).1 (h j).2

/-- The cast of a finite sum of reals is the sum of the casts. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

end Cert.Spec

end
-- ==== Proof.Payload.lean ====
import proofs.«165200_g38809324486706_cont_8to1_b_1300_8_alg».proof.Proof.Gen.KernelIdeal.Skeleton
import proofs.«165200_g38809324486706_cont_8to1_b_1300_8_alg».proof.Proof.Spec
import Idealize.ShloMosaic.Lib.ValueIdx
import Idealize.ShloMosaic.Lib.Pipeline.Value
import Idealize.ShloMosaic.Lib.ValueLayout
import Idealize.ShloMosaic.PureOps.Ideal.Laws

/-!
The three values the kernel body stores, read at one index, at the ideal (extended-real) values.

From two 4096 × 64 matrices X₀, X₁ and a 64 × 64 matrix W the body forms P = X₀·W and Q = X₁·W, sets them side by
side as [P, Q] and [−Q, P] (4096 × 128 each), and stores A·[P, Q] + B·[−Q, P] for two 512 × 4096 matrices A, B. So
the left 64 columns hold A·P − B·Q and the right 64 columns hold A·Q + B·P: the real and imaginary parts of
(A + √-1·B)·(P + √-1·Q).
-/

noncomputable section

namespace Cert.KernelIdeal.Pay

open Idealize.ShloMosaic Idealize.ShloMosaic.ValueIdx Cert.KernelIdeal Cert.KernelIdeal.Gen

/-! ## Two pieces side by side along the columns, read at an index -/

section Cat
variable {α : Type}

/-- Left of the seam: the first piece at the same place. -/
theorem cat_lo {a b c : ℕ} (x₁ x₂ : (⟨2, ![a, b]⟩ : Shape).Idx → α)
    (h : Shape.Concatenates [(⟨2, ![a, b]⟩ : Shape), ⟨2, ![a, b]⟩] ⟨2, ![a, c]⟩ 1) (n : Fin a) (q : Fin b) (hq : q.val < c) :
    concatenate ⟨2, ![a, c]⟩ 1 [⟨⟨2, ![a, b]⟩, x₁⟩, ⟨⟨2, ![a, b]⟩, x₂⟩] h (ix2 n ⟨q.val, hq⟩) = x₁ (ix2 n q) :=
  concatenate_pair_apply_left 1 x₁ x₂ h (ix2 n ⟨q.val, hq⟩) rfl (ix2 n q) fun ax =>
    match ax with
    | ⟨0, _⟩ => rfl
    | ⟨1, _⟩ => rfl

/-- Right of the seam: the second piece, the first piece's width less. -/
theorem cat_hi {a b c : ℕ} (x₁ x₂ : (⟨2, ![a, b]⟩ : Shape).Idx → α)
    (h : Shape.Concatenates [(⟨2, ![a, b]⟩ : Shape), ⟨2, ![a, b]⟩] ⟨2, ![a, c]⟩ 1) (n : Fin a) (q : Fin b) (hq : b + q.val < c) :
    concatenate ⟨2, ![a, c]⟩ 1 [⟨⟨2, ![a, b]⟩, x₁⟩, ⟨⟨2, ![a, b]⟩, x₂⟩] h (ix2 n ⟨b + q.val, hq⟩) = x₂ (ix2 n q) :=
  concatenate_pair_apply_right 1 x₁ x₂ h (ix2 n ⟨b + q.val, hq⟩) rfl rfl (ix2 n q)
    (fun ax hax =>
      match ax, hax with
      | ⟨0, _⟩, _ => rfl
      | ⟨1, _⟩, hax => absurd rfl hax)
    (show q.val + b = b + q.val from Nat.add_comm _ _)

end Cat

/-! ## The two matrix products, read at an index -/

theorem mm_xw_lhs0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem mm_xw_lhs1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem mm_xw_rhs0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem mm_xw_rhs1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- X·W at (r, c): the 64-term sum over the shared axis. -/
theorem mm_xw (lhs : FVec Ideal S4096x64 .f32) (rhs : FVec Ideal S64x64 .f32) (r : Fin 4096) (c : Fin 64) :
    matmul dot_S4096x64_S64x64_S4096x64_1_0_0_1_n_n none lhs rhs (constant (F := Ideal) S4096x64 .f32 0x00000000#32) (ix2 r c)
      = ∑ k : Fin 64, lhs (ix2 r k) * rhs (ix2 k c) := by
  refine (Ideal.matmul_constant_zero_apply dot_S4096x64_S64x64_S4096x64_1_0_0_1_n_n none lhs rhs (ix2 r c)).trans ?_
  rw [← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 r c) ((contrEquiv1 dot_S4096x64_S64x64_S4096x64_1_0_0_1_n_n 64 rfl rfl).symm k) = ix2 r k := funext fun a => Fin.ext (by
    match a with
    | ⟨0, _⟩ => exact mm_xw_lhs0 _ _
    | ⟨1, _⟩ => exact (mm_xw_lhs1 _ _).trans hk)
  have er : dot_S4096x64_S64x64_S4096x64_1_0_0_1_n_n.rhsIdx (ix2 r c) ((contrEquiv1 dot_S4096x64_S64x64_S4096x64_1_0_0_1_n_n 64 rfl rfl).symm k) = ix2 k c := funext fun a => Fin.ext (by
    match a with
    | ⟨0, _⟩ => exact (mm_xw_rhs0 _ _).trans hk
    | ⟨1, _⟩ => exact mm_xw_rhs1 _ _)
  rw [el, er]

theorem mm_ly_lhs0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem mm_ly_lhs1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem mm_ly_rhs0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem mm_ly_rhs1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- A·Y at (r, c): the 4096-term sum over the shared axis. -/
theorem mm_ly (lhs : FVec Ideal S512x4096 .bf16) (rhs : FVec Ideal S4096x128 .bf16) (r : Fin 512) (c : Fin 128) :
    matmul dot_S512x4096_S4096x128_S512x128_1_0_0_1_n_n none lhs rhs (constant (F := Ideal) S512x128 .f32 0x00000000#32) (ix2 r c)
      = ∑ k : Fin 4096, lhs (ix2 r k) * rhs (ix2 k c) := by
  refine (Ideal.matmul_constant_zero_apply dot_S512x4096_S4096x128_S512x128_1_0_0_1_n_n none lhs rhs (ix2 r c)).trans ?_
  rw [← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 r c) ((contrEquiv1 dot_S512x4096_S4096x128_S512x128_1_0_0_1_n_n 4096 rfl rfl).symm k) = ix2 r k := funext fun a => Fin.ext (by
    match a with
    | ⟨0, _⟩ => exact mm_ly_lhs0 _ _
    | ⟨1, _⟩ => exact (mm_ly_lhs1 _ _).trans hk)
  have er : dot_S512x4096_S4096x128_S512x128_1_0_0_1_n_n.rhsIdx (ix2 r c) ((contrEquiv1 dot_S512x4096_S4096x128_S512x128_1_0_0_1_n_n 4096 rfl rfl).symm k) = ix2 k c := funext fun a => Fin.ext (by
    match a with
    | ⟨0, _⟩ => exact (mm_ly_rhs0 _ _).trans hk
    | ⟨1, _⟩ => exact mm_ly_rhs1 _ _)
  rw [el, er]

/-! ## The body's pieces, read at an index -/

/-- X·W as the body forms it, both operands' leading unit axes dropped, at (n, c). -/
theorem xw_apply (v : Vec Ideal S1x4096x64 .f32) (w : Vec Ideal S1x64x64 .f32) (n : Fin 4096) (c : Fin 64) :
    matmul dot_S4096x64_S64x64_S4096x64_1_0_0_1_n_n none (shapeCast S4096x64 v shapeCasts_S1x4096x64_S4096x64 : FVec Ideal S4096x64 .f32)
        (shapeCast S64x64 w shapeCasts_S1x64x64_S64x64 : FVec Ideal S64x64 .f32) (constant (F := Ideal) S4096x64 .f32 0x00000000#32) (ix2 n c)
      = ∑ k : Fin 64, v (ix3 0 n k) * w (ix3 0 k c) := by
  refine (mm_xw _ _ n c).trans ?_
  refine Finset.sum_congr rfl fun k _ => ?_
  exact congrArg₂ (· * ·) (shapeCast_1ab_ab_apply v shapeCasts_S1x4096x64_S4096x64 n k)
    (shapeCast_1ab_ab_apply w shapeCasts_S1x64x64_S64x64 k c)

/-- With finite entries that sum is the cast of the real sum. -/
theorem xw_real (v : Vec Ideal S1x4096x64 .f32) (w : Vec Ideal S1x64x64 .f32) (hv : Cert.Spec.Fin' v) (hw : Cert.Spec.Fin' w)
    (n : Fin 4096) (c : Fin 64) :
    (∑ k : Fin 64, v (ix3 0 n k) * w (ix3 0 k c) : EReal)
      = ((∑ k : Fin 64, (v (ix3 0 n k)).toReal * (w (ix3 0 k c)).toReal : ℝ) : EReal) := by
  rw [Cert.Spec.coe_sum]
  refine Finset.sum_congr rfl fun k _ => ?_
  rw [EReal.coe_mul, Cert.Spec.coe_toReal_of_fin hv, Cert.Spec.coe_toReal_of_fin hw]

/-- A 512 × 4096 matrix (its leading unit axis dropped) times two matrices set side by side, left of the seam. -/
theorem ly_lo (A : Vec Ideal S1x512x4096 .f32) (P Q : FVec Ideal S4096x64 .f32) (p : Fin 512) (q : Fin 64) (hq : q.val < 128) :
    matmul dot_S512x4096_S4096x128_S512x128_1_0_0_1_n_n none
        (truncf .bf16 (shapeCast S512x4096 A shapeCasts_S1x512x4096_S512x4096 : FVec Ideal S512x4096 .f32) bitsLt_bf16_f32)
        (truncf .bf16 (concatenate S4096x128 1 [⟨S4096x64, P⟩, ⟨S4096x64, Q⟩] concatenates_S4096x64_S4096x64_S4096x128_d1 : FVec Ideal S4096x128 .f32) bitsLt_bf16_f32)
        (constant (F := Ideal) S512x128 .f32 0x00000000#32) (ix2 p ⟨q.val, hq⟩)
      = ∑ n : Fin 4096, A (ix3 0 p n) * P (ix2 n q) := by
  refine (mm_ly _ _ p _).trans ?_
  refine Finset.sum_congr rfl fun n _ => ?_
  exact congrArg₂ (· * ·) (shapeCast_1ab_ab_apply A shapeCasts_S1x512x4096_S512x4096 p n)
    (cat_lo P Q concatenates_S4096x64_S4096x64_S4096x128_d1 n q hq)

/-- The same right of the seam. -/
theorem ly_hi (A : Vec Ideal S1x512x4096 .f32) (P Q : FVec Ideal S4096x64 .f32) (p : Fin 512) (q : Fin 64) (hq : 64 + q.val < 128) :
    matmul dot_S512x4096_S4096x128_S512x128_1_0_0_1_n_n none
        (truncf .bf16 (shapeCast S512x4096 A shapeCasts_S1x512x4096_S512x4096 : FVec Ideal S512x4096 .f32) bitsLt_bf16_f32)
        (truncf .bf16 (concatenate S4096x128 1 [⟨S4096x64, P⟩, ⟨S4096x64, Q⟩] concatenates_S4096x64_S4096x64_S4096x128_d1 : FVec Ideal S4096x128 .f32) bitsLt_bf16_f32)
        (constant (F := Ideal) S512x128 .f32 0x00000000#32) (ix2 p ⟨64 + q.val, hq⟩)
      = ∑ n : Fin 4096, A (ix3 0 p n) * Q (ix2 n q) := by
  refine (mm_ly _ _ p _).trans ?_
  refine Finset.sum_congr rfl fun n _ => ?_
  exact congrArg₂ (· * ·) (shapeCast_1ab_ab_apply A shapeCasts_S1x512x4096_S512x4096 p n)
    (cat_hi P Q concatenates_S4096x64_S4096x64_S4096x128_d1 n q hq)

/-! ## The three stored values -/

/-- A finite row against a column of reals: the cast of the real sum. -/
theorem row_real (A : Vec Ideal S1x512x4096 .f32) (hA : Cert.Spec.Fin' A) (p : Fin 512) (f : Fin 4096 → ℝ) :
    (∑ n : Fin 4096, A (ix3 0 p n) * ((f n : ℝ) : EReal) : EReal)
      = ((∑ n : Fin 4096, (A (ix3 0 p n)).toReal * f n : ℝ) : EReal) := by
  rw [Cert.Spec.coe_sum]
  refine Finset.sum_congr rfl fun n _ => ?_
  rw [EReal.coe_mul, Cert.Spec.coe_toReal_of_fin hA]

/-- The zero the body subtracts Q from. -/
theorem zero_word : (FloatOps.ofBits (F := Ideal) .f32 0x00000000#32 : EReal) = 0 := Ideal.ofBits_zero_f32

/-- Left of the seam the stored value is A·(X₀·W) − B·(X₁·W). -/
theorem pay2_lo (v0 v2 : Vec Ideal S1x4096x64 .f32) (v4 : Vec Ideal S1x64x64 .f32) (v14 v17 : Vec Ideal S1x512x4096 .f32)
    (h0 : Cert.Spec.Fin' v0) (h2 : Cert.Spec.Fin' v2) (h4 : Cert.Spec.Fin' v4) (h14 : Cert.Spec.Fin' v14) (h17 : Cert.Spec.Fin' v17)
    (p : Fin 512) (q : Fin 64) :
    k0_pay2 (F := Ideal) v0 v2 v4 v14 v17 (ix2 p ⟨q.val, by omega⟩) =
      (((∑ n : Fin 4096, (v14 (ix3 0 p n)).toReal * (∑ k : Fin 64, (v0 (ix3 0 n k)).toReal * (v4 (ix3 0 k q)).toReal))
        - (∑ n : Fin 4096, (v17 (ix3 0 p n)).toReal * (∑ k : Fin 64, (v2 (ix3 0 n k)).toReal * (v4 (ix3 0 k q)).toReal)) : ℝ) : EReal) := by
  unfold k0_pay2
  refine (addf_apply _ _ _).trans ?_
  refine (congrArg₂ (· + ·) (ly_lo v14 _ _ p q _) (ly_lo v17 _ _ p q _)).trans ?_
  simp only [subf_apply, broadcast_apply, xw_apply, xw_real v0 v4 h0 h4, xw_real v2 v4 h2 h4, zero_word, zero_sub, ← EReal.coe_neg,
    row_real v14 h14, row_real v17 h17, ← EReal.coe_add]
  refine congrArg _ ?_
  simp only [mul_neg, Finset.sum_neg_distrib, sub_eq_add_neg]

/-- Right of the seam the stored value is A·(X₁·W) + B·(X₀·W). -/
theorem pay2_hi (v0 v2 : Vec Ideal S1x4096x64 .f32) (v4 : Vec Ideal S1x64x64 .f32) (v14 v17 : Vec Ideal S1x512x4096 .f32)
    (h0 : Cert.Spec.Fin' v0) (h2 : Cert.Spec.Fin' v2) (h4 : Cert.Spec.Fin' v4) (h14 : Cert.Spec.Fin' v14) (h17 : Cert.Spec.Fin' v17)
    (p : Fin 512) (q : Fin 64) :
    k0_pay2 (F := Ideal) v0 v2 v4 v14 v17 (ix2 p ⟨64 + q.val, by omega⟩) =
      (((∑ n : Fin 4096, (v14 (ix3 0 p n)).toReal * (∑ k : Fin 64, (v2 (ix3 0 n k)).toReal * (v4 (ix3 0 k q)).toReal))
        + (∑ n : Fin 4096, (v17 (ix3 0 p n)).toReal * (∑ k : Fin 64, (v0 (ix3 0 n k)).toReal * (v4 (ix3 0 k q)).toReal)) : ℝ) : EReal) := by
  unfold k0_pay2
  refine (addf_apply _ _ _).trans ?_
  refine (congrArg₂ (· + ·) (ly_hi v14 _ _ p q _) (ly_hi v17 _ _ p q _)).trans ?_
  simp only [xw_apply, xw_real v0 v4 h0 h4, xw_real v2 v4 h2 h4, row_real v14 h14, row_real v17 h17, ← EReal.coe_add]

/-- The accumulating form: the same value added, entry by entry, to a given 512 × 128 array. -/
theorem pay3_apply (v0 v2 : Vec Ideal S1x4096x64 .f32) (v4 : Vec Ideal S1x64x64 .f32) (v14 v17 : Vec Ideal S1x512x4096 .f32)
    (v32 : Vec Ideal S512x128 .f32) (y : S512x128.Idx) :
    k0_pay3 (F := Ideal) v0 v2 v4 v14 v17 v32 y = v32 y + k0_pay2 (F := Ideal) v0 v2 v4 v14 v17 y := by
  unfold k0_pay3
  refine (addf_apply _ _ _).trans ?_
  exact congrArg (· + k0_pay2 (F := Ideal) v0 v2 v4 v14 v17 y) (congrFun (shapeCast_self v32 shapeCasts_S512x128_S512x128) y)

/-- Two 1 × 64 rows set side by side and added to every row of a 512 × 128 array: left of the seam the first row. -/
theorem pay1_lo (v32 v33 : Vec Ideal S1x64 .f32) (v35 : Vec Ideal S512x128 .f32) (p : Fin 512) (q : Fin 64) :
    k0_pay1 (F := Ideal) v32 v33 v35 (ix2 p ⟨q.val, by omega⟩) = v35 (ix2 p ⟨q.val, by omega⟩) + v32 (ix2 0 q) := by
  unfold k0_pay1
  refine (addf_apply _ _ _).trans ?_
  refine congrArg₂ (· + ·) (congrFun (shapeCast_self v35 shapeCasts_S512x128_S512x128) _) ?_
  refine (broadcastTo_1b_ab_apply _ broadcasts_S1x128_S512x128 p _).trans ?_
  exact cat_lo v32 v33 concatenates_S1x64_S1x64_S1x128_d1 0 q _

/-- Right of the seam the second row. -/
theorem pay1_hi (v32 v33 : Vec Ideal S1x64 .f32) (v35 : Vec Ideal S512x128 .f32) (p : Fin 512) (q : Fin 64) :
    k0_pay1 (F := Ideal) v32 v33 v35 (ix2 p ⟨64 + q.val, by omega⟩) = v35 (ix2 p ⟨64 + q.val, by omega⟩) + v33 (ix2 0 q) := by
  unfold k0_pay1
  refine (addf_apply _ _ _).trans ?_
  refine congrArg₂ (· + ·) (congrFun (shapeCast_self v35 shapeCasts_S512x128_S512x128) _) ?_
  refine (broadcastTo_1b_ab_apply _ broadcasts_S1x128_S512x128 p _).trans ?_
  exact cat_hi v32 v33 concatenates_S1x64_S1x64_S1x128_d1 0 q _

end Cert.KernelIdeal.Pay

end
-- ==== Proof.Blocks.lean ====
import proofs.«165200_g38809324486706_cont_8to1_b_1300_8_alg».proof.Proof.Gen.KernelIdeal.Frame
import Idealize.ShloMosaic.Lib.Pipeline.Value
import Idealize.ShloMosaic.Lib.ValueIdx

/-!
Where each window's block sits in its array.

The grid has 8 row blocks and 3 terms; point t is row block t / 3, term t % 3. An element of a block sits in
the array, on each axis, at the block index times the block size plus its own coordinate. So at point t the
blocks of the two [3, 4096, 4096] arrays are rows 512·(t / 3) … 512·(t / 3) + 511 of matrix t % 3, the block
of the [3, 64, 64] array is matrix t % 3, the [2, 4096, 64] and [1, 64] arrays are read whole, and the output
block is rows 512·(t / 3) … of the [4096, 128] result, written back at the last term of each row block.
-/

set_option maxRecDepth 16384

noncomputable section

namespace Cert.KernelIdeal.Blk

open Cert.KernelIdeal Cert.KernelIdeal.Gen Idealize.ShloMosaic Idealize.ShloMosaic.ValueIdx Idealize.ShloMosaic.TcCoe Idealize.SL.Sem

variable {F : FTy → Type} [FloatOps F]
variable (m : (ℓ : Loc nD τ sig) → Buf (Elt F) ℓ)

/-! ## The block indices over the grid, and each input block in its array -/

/-- The grid has 24 points. -/
theorem t_lt (t : Fin cfg0.N) : t.val < 24 := lt_of_lt_of_eq t.isLt N_0

theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)

/-- The [2, 4096, 64] array is read whole at every point. -/
theorem blk0 (c : Dev nD) (t : Fin cfg0.N) (p : Fin 2) (n : Fin 4096) (k : Fin 64) :
    (iblk m c 0 t : Vec F S2x4096x64 .f32) (ix3 p n k) = V m c main_arg0 (ix3 p n k) := by
  have hi := idx0 t
  unfold iblk
  rw [View.read_apply]
  show V m c main_arg0 _ = V m c main_arg0 _
  congr 1
  funext a
  apply Fin.ext
  match a with
  | ⟨0, _⟩ => show win0_0.index t 0 * 2 + 1 * p.val = p.val; rw [hi.1]; omega
  | ⟨1, _⟩ => show win0_0.index t 1 * 4096 + 1 * n.val = n.val; rw [hi.2.1]; omega
  | ⟨2, _⟩ => show win0_0.index t 2 * 64 + 1 * k.val = k.val; rw [hi.2.2]; omega

theorem idx1 : ∀ t : Fin cfg0.N, win0_1.index t 0 = t.val % 3 ∧ win0_1.index t 1 = t.val / 3 ∧ win0_1.index t 2 = 0 :=
  (by decide +kernel : ∀ t : Fin grid0.N, win0_1.index t 0 = t.val % 3 ∧ win0_1.index t 1 = t.val / 3 ∧ win0_1.index t 2 = 0)

/-- Rows 512·(t / 3) … of matrix t % 3. -/
theorem blk1 (c : Dev nD) (t : Fin cfg0.N) (p : Fin 512) (n : Fin 4096) :
    (iblk m c 1 t : Vec F S1x512x4096 .f32) (ix3 0 p n)
      = V m c main_arg1 (ix3 ⟨t.val % 3, Nat.mod_lt _ (by decide)⟩
          ⟨512 * (t.val / 3) + p.val, by have := t_lt t; have := p.isLt; omega⟩ n) := by
  have hi := idx1 t
  unfold iblk
  rw [View.read_apply]
  show V m c main_arg1 _ = V m c main_arg1 _
  congr 1
  funext a
  apply Fin.ext
  match a with
  | ⟨0, _⟩ => show win0_1.index t 0 * 1 + 1 * 0 = t.val % 3; rw [hi.1]; omega
  | ⟨1, _⟩ => show win0_1.index t 1 * 512 + 1 * p.val = 512 * (t.val / 3) + p.val; rw [hi.2.1]; omega
  | ⟨2, _⟩ => show win0_1.index t 2 * 4096 + 1 * n.val = n.val; rw [hi.2.2]; omega

theorem idx2 : ∀ t : Fin cfg0.N, win0_2.index t 0 = t.val % 3 ∧ win0_2.index t 1 = t.val / 3 ∧ win0_2.index t 2 = 0 :=
  (by decide +kernel : ∀ t : Fin grid0.N, win0_2.index t 0 = t.val % 3 ∧ win0_2.index t 1 = t.val / 3 ∧ win0_2.index t 2 = 0)

/-- Rows 512·(t / 3) … of matrix t % 3. -/
theorem blk2 (c : Dev nD) (t : Fin cfg0.N) (p : Fin 512) (n : Fin 4096) :
    (iblk m c 2 t : Vec F S1x512x4096 .f32) (ix3 0 p n)
      = V m c main_arg2 (ix3 ⟨t.val % 3, Nat.mod_lt _ (by decide)⟩
          ⟨512 * (t.val / 3) + p.val, by have := t_lt t; have := p.isLt; omega⟩ n) := by
  have hi := idx2 t
  unfold iblk
  rw [View.read_apply]
  show V m c main_arg2 _ = V m c main_arg2 _
  congr 1
  funext a
  apply Fin.ext
  match a with
  | ⟨0, _⟩ => show win0_2.index t 0 * 1 + 1 * 0 = t.val % 3; rw [hi.1]; omega
  | ⟨1, _⟩ => show win0_2.index t 1 * 512 + 1 * p.val = 512 * (t.val / 3) + p.val; rw [hi.2.1]; omega
  | ⟨2, _⟩ => show win0_2.index t 2 * 4096 + 1 * n.val = n.val; rw [hi.2.2]; omega

theorem idx3 : ∀ t : Fin cfg0.N, win0_3.index t 0 = t.val % 3 ∧ win0_3.index t 1 = 0 ∧ win0_3.index t 2 = 0 :=
  (by decide +kernel : ∀ t : Fin grid0.N, win0_3.index t 0 = t.val % 3 ∧ win0_3.index t 1 = 0 ∧ win0_3.index t 2 = 0)

/-- Matrix t % 3 of the [3, 64, 64] array. -/
theorem blk3 (c : Dev nD) (t : Fin cfg0.N) (k q : Fin 64) :
    (iblk m c 3 t : Vec F S1x64x64 .f32) (ix3 0 k q) = V m c main_arg3 (ix3 ⟨t.val % 3, Nat.mod_lt _ (by decide)⟩ k q) := by
  have hi := idx3 t
  unfold iblk
  rw [View.read_apply]
  show V m c main_arg3 _ = V m c main_arg3 _
  congr 1
  funext a
  apply Fin.ext
  match a with
  | ⟨0, _⟩ => show win0_3.index t 0 * 1 + 1 * 0 = t.val % 3; rw [hi.1]; omega
  | ⟨1, _⟩ => show win0_3.index t 1 * 64 + 1 * k.val = k.val; rw [hi.2.1]; omega
  | ⟨2, _⟩ => show win0_3.index t 2 * 64 + 1 * q.val = q.val; rw [hi.2.2]; omega

theorem idx4 : ∀ t : Fin cfg0.N, win0_4.index t 0 = 0 ∧ win0_4.index t 1 = 0 :=
  (by decide +kernel : ∀ t : Fin grid0.N, win0_4.index t 0 = 0 ∧ win0_4.index t 1 = 0)

/-- The [1, 64] row is read whole at every point. -/
theorem blk4 (c : Dev nD) (t : Fin cfg0.N) (q : Fin 64) :
    (iblk m c 4 t : Vec F S1x64 .f32) (ix2 0 q) = V m c main_arg4 (ix2 0 q) := by
  have hi := idx4 t
  unfold iblk
  rw [View.read_apply]
  show V m c main_arg4 _ = V m c main_arg4 _
  congr 1
  funext a
  apply Fin.ext
  match a with
  | ⟨0, _⟩ => show win0_4.index t 0 * 1 + 1 * 0 = 0; rw [hi.1]
  | ⟨1, _⟩ => show win0_4.index t 1 * 64 + 1 * q.val = q.val; rw [hi.2]; omega

/-! ## The output block in the result, and the write-backs' cover -/

theorem idx5 : ∀ t : Fin cfg0.N, win0_5.index t 0 = t.val / 3 ∧ win0_5.index t 1 = 0
      ∧ win0_5.xsize (grid0.coords t) 0 = 512 ∧ win0_5.xsize (grid0.coords t) 1 = 128 :=
  (by decide +kernel : ∀ t : Fin grid0.N, win0_5.index t 0 = t.val / 3 ∧ win0_5.index t 1 = 0
      ∧ win0_5.xsize (grid0.coords t) 0 = 512 ∧ win0_5.xsize (grid0.coords t) 1 = 128)

/-- The output block at point t, read off any contents of the [4096, 128] result: rows 512·(t / 3) …. -/
theorem oblk (c : Dev nD) (t : Fin cfg0.N) (G : Buf (Elt F) ((cfg0.win 5).arr.view.loc (c.tc : Thread nD τ))) (p : Fin 512) (q : Fin 128) :
    (((cfg0.win 5).blk t).view.read (Elt F) G : Vec F S512x128 .f32) (ix2 p q)
      = (G : Vec F S4096x128 .f32) (ix2 ⟨512 * (t.val / 3) + p.val, by have := t_lt t; have := p.isLt; omega⟩ q) := by
  have hi := idx5 t
  rw [View.read_apply]
  show G _ = G _
  congr 1
  funext a
  apply Fin.ext
  match a with
  | ⟨0, _⟩ => show win0_5.index t 0 * 512 + 1 * p.val = 512 * (t.val / 3) + p.val; rw [hi.1]; omega
  | ⟨1, _⟩ => show win0_5.index t 1 * 128 + 1 * q.val = q.val; rw [hi.2.1]; omega

/-- Every entry of the result lies in the block written back at the last term of its row block. -/
theorem ocover (i : S4096x128.Idx) : ∃ t : Fin cfg0.N, (cfg0.win 5).flush t = true ∧ i ∈ ((cfg0.win 5).blk t).view.set := by
  have h0 : (i 0 : Nat) < 4096 := (i 0).isLt
  have h1 : (i 1 : Nat) < 128 := (i 1).isLt
  obtain ⟨t, ht⟩ : ∃ t : Fin cfg0.N, t.val = 3 * ((i 0 : Nat) / 512) + 2 :=
    ⟨⟨3 * ((i 0 : Nat) / 512) + 2, by rw [show cfg0.N = 24 from N_0]; omega⟩, rfl⟩
  have hi := idx5 t
  refine ⟨t, (flush0_5 t).mpr (by omega), ?_⟩
  show i ∈ ((View.whole main_call0_v0).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + win0_5.xsize (grid0.coords t) 0
    rw [hi.1, hi.2.2.1]; omega
  | ⟨1, _⟩ =>
    show win0_5.index t 1 * 128 ≤ (i 1 : Nat) ∧ (i 1 : Nat) < win0_5.index t 1 * 128 + win0_5.xsize (grid0.coords t) 1
    rw [hi.2.1, hi.2.2.2]; omega

end Cert.KernelIdeal.Blk

end
-- ==== Proof.Tail.lean ====
import proofs.«165200_g38809324486706_cont_8to1_b_1300_8_alg».proof.Proof.Gen.KernelIdeal.Frame
import Idealize.ShloMosaic.Lib.Pipeline.Value
import Idealize.ShloMosaic.Lib.ValueIdx
import Idealize.ShloMosaic.Lib.StableHlo.Run

/-!
The two host operations after the region.

The region leaves a [4096, 128] array; the program's two results are its left and right halves, columns 0 … 63
and columns 64 … 127, each cut out by one slice. Whatever the region's proof data, the first result is the
slice at column offset 0 of the array as the last write-back leaves it, the second the slice at column offset 64;
and a slice at column offset o reads, at (r, q), the array at (r, o + q).
-/

set_option maxRecDepth 16384

noncomputable section

namespace Cert.KernelIdeal.Tail

open Cert.KernelIdeal Cert.KernelIdeal.Gen Idealize.ShloMosaic Idealize.ShloMosaic.ValueIdx Idealize.ShloMosaic.TcCoe Idealize.SL.Sem
open Idealize.ShloMosaic.StableHlo Idealize.ShloMosaic.Tactic

variable {F : FTy → Type} [FloatOps F]

/-! ## A column slice read at an index -/

/-- The left half at (r, q) is the array at (r, q). -/
theorem slice_lo (G : Vec F S4096x128 .f32) (r : Fin 4096) (q : Fin 64) :
    extractStridedSlice S4096x64 ![0, 0] G slices_S4096x128_S4096x64_0_0 (ix2 r q) = G (ix2 r ⟨q.val, by omega⟩) :=
  extractStridedSlice_apply ![0, 0] G slices_S4096x128_S4096x64_0_0 (ix2 r q) (ix2 r ⟨q.val, by omega⟩) fun a =>
    match a with
    | ⟨0, _⟩ => (Nat.zero_add r.val).symm
    | ⟨1, _⟩ => (Nat.zero_add q.val).symm

/-- The right half at (r, q) is the array at (r, 64 + q). -/
theorem slice_hi (G : Vec F S4096x128 .f32) (r : Fin 4096) (q : Fin 64) :
    extractStridedSlice S4096x64 ![0, 64] G slices_S4096x128_S4096x64_0_64 (ix2 r q) = G (ix2 r ⟨64 + q.val, by omega⟩) :=
  extractStridedSlice_apply ![0, 64] G slices_S4096x128_S4096x64_0_64 (ix2 r q) (ix2 r ⟨64 + q.val, by omega⟩) fun a =>
    match a with
    | ⟨0, _⟩ => (Nat.zero_add r.val).symm
    | ⟨1, _⟩ => rfl

/-! ## The two results are buffers that bypass the region -/

theorem mem_rest_v0 : main_v0_0 ∈ Pipeline.restRefs sig (cfgs 0).spec :=
  Pipeline.mem_restRefs_of main_v0_0 (by decide) (by decide)

theorem mem_rest_v1 : main_v0_1 ∈ Pipeline.restRefs sig (cfgs 0).spec :=
  Pipeline.mem_restRefs_of main_v0_1 (by decide) (by decide)

/-! ## The two results after the tail -/

variable (m : (ℓ : Loc nD τ sig) → Buf (Elt F) ℓ)
  (dats : (p : Fin 1) → (c : Dev nD) → Pipeline.Dat τ (Elt F) Unit ℕ (UR sig nD τ) ℕ (cfgs p) c)

/-- The first result: the left half of the region's array as the write-backs leave it. -/
theorem tail_v0 (c : Dev nD) :
    Pipeline.afterTail₀ cfgs dats 0 (V0 m) [hostOps1] c main_v0_0
      = extractStridedSlice S4096x64 ![0, 0] ((dats 0 c).arrAt 5 cfg0.N) slices_S4096x128_S4096x64_0_0 := by
  unfold Pipeline.afterTail₀
  show StableHlo.after hostOps1 _ (Proc.devRef .tc main_v0_0) = _
  after_results
  show extractStridedSlice S4096x64 ![0, 0]
      (Pipeline.withArrays spec0 c (V0 m c) (fun w => (dats 0 c).arrAt w (cfgs 0).N) (Proc.devRef .tc (Pipeline.arrRef spec0 5)))
      slices_S4096x128_S4096x64_0_0 = _
  exact congrArg (fun x => extractStridedSlice S4096x64 ![0, 0] x slices_S4096x128_S4096x64_0_0)
    (Pipeline.withArrays_arr spec0 launch0.win.arr_inj c (V0 m c) (fun w => (dats 0 c).arrAt w (cfgs 0).N) 5)

/-- The second result: its right half. -/
theorem tail_v1 (c : Dev nD) :
    Pipeline.afterTail₀ cfgs dats 0 (V0 m) [hostOps1] c main_v0_1
      = extractStridedSlice S4096x64 ![0, 64] ((dats 0 c).arrAt 5 cfg0.N) slices_S4096x128_S4096x64_0_64 := by
  unfold Pipeline.afterTail₀
  show StableHlo.after hostOps1 _ (Proc.devRef .tc main_v0_1) = _
  after_results
  show extractStridedSlice S4096x64 ![0, 64]
      (Pipeline.withArrays spec0 c (V0 m c) (fun w => (dats 0 c).arrAt w (cfgs 0).N) (Proc.devRef .tc (Pipeline.arrRef spec0 5)))
      slices_S4096x128_S4096x64_0_64 = _
  exact congrArg (fun x => extractStridedSlice S4096x64 ![0, 64] x slices_S4096x128_S4096x64_0_64)
    (Pipeline.withArrays_arr spec0 launch0.win.arr_inj c (V0 m c) (fun w => (dats 0 c).arrAt w (cfgs 0).N) 5)

end Cert.KernelIdeal.Tail

end
-- ==== Proof.KI.Value.lean ====
/-
  The value of the convolution kernel at the ideal instance, under finite inputs.

  With every entry of the five argument arrays a real number, the term's product at point t = 3R + i, read at row p
  and column q of its [512, 128] block, is the cast of a real: in the left half (q < 64)
    Σ_n A_i(512R + p, n) · (X₀ W_i)(n, q) − Σ_n B_i(512R + p, n) · (X₁ W_i)(n, q),
  in the right half the same with X₁, X₀ in place of X₀, X₁ and a plus sign. Over the three terms of a row block the
  output block accumulates these in order and finally adds the bias row, so what is written back after term 2 is the
  specification's real part in the left half and its imaginary part in the right half. The eight write-backs tile
  the [4096, 128] output array, and the two results are its two column halves.
-/
import proofs.«165200_g38809324486706_cont_8to1_b_1300_8_alg».proof.Proof.KI.Pieces
import proofs.«165200_g38809324486706_cont_8to1_b_1300_8_alg».proof.Proof.Payload
import proofs.«165200_g38809324486706_cont_8to1_b_1300_8_alg».proof.Proof.Blocks
import proofs.«165200_g38809324486706_cont_8to1_b_1300_8_alg».proof.Proof.Tail
import proofs.«165200_g38809324486706_cont_8to1_b_1300_8_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec Cert.KernelIdeal.Pay Cert.KernelIdeal.Blk Cert.KernelIdeal.Tail

variable (m : (ℓ : Loc nD τ sig) → Buf (Elt Ideal) ℓ) (ρ : Dev nD → PrngReg)

/-- Every entry of the five argument arrays of core `c` is finite. -/
structure FinArgs (c : Dev nD) : Prop where
  h0 : Fin' (V m c main_arg0)
  h1 : Fin' (V m c main_arg1)
  h2 : Fin' (V m c main_arg2)
  h3 : Fin' (V m c main_arg3)
  h4 : Fin' (V m c main_arg4)

/-- A block of a finite array is finite: each of its entries is an entry of the array. -/
theorem fin_blk0 (c : Dev nD) (t : Fin cfg0.N) (h : Fin' (V m c main_arg0)) : Fin' (iblk m c 0 t : Vec Ideal S2x4096x64 .f32) := fun j => by
  unfold iblk; rw [View.read_apply]; exact h _
theorem fin_blk1 (c : Dev nD) (t : Fin cfg0.N) (h : Fin' (V m c main_arg1)) : Fin' (iblk m c 1 t : Vec Ideal S1x512x4096 .f32) := fun j => by
  unfold iblk; rw [View.read_apply]; exact h _
theorem fin_blk2 (c : Dev nD) (t : Fin cfg0.N) (h : Fin' (V m c main_arg2)) : Fin' (iblk m c 2 t : Vec Ideal S1x512x4096 .f32) := fun j => by
  unfold iblk; rw [View.read_apply]; exact h _
theorem fin_blk3 (c : Dev nD) (t : Fin cfg0.N) (h : Fin' (V m c main_arg3)) : Fin' (iblk m c 3 t : Vec Ideal S1x64x64 .f32) := fun j => by
  unfold iblk; rw [View.read_apply]; exact h _

theorem partX_apply (x0 : Vec Ideal S2x4096x64 .f32) (p : Fin 2) (n : Fin 4096) (k : Fin 64) :
    partX x0 p (ix3 0 n k) = x0 (ix3 p n k) := rfl

theorem fin_part (c : Dev nD) (h : FinArgs m c) (t : Fin cfg0.N) (p : Fin 2) : Fin' (partX (iblk m c 0 t) p) :=
  fun j => fin_blk0 m c t h.h0 (ix3 p (j 1) (j 2))

/-! ## The term's product as a real -/

section Term
variable (c : Dev nD) (h : FinArgs m c) (t : Fin cfg0.N) (i : Fin 3) (R : Fin 8) (ht : t.val = 3 * R.val + i.val) (p : Fin 512) (q : Fin 64)
include h ht

theorem prod_lo :
    k0_pay2 (F := Ideal) (partX (iblk m c 0 t) 0) (partX (iblk m c 0 t) 1) (iblk m c 3 t) (iblk m c 1 t) (iblk m c 2 t) (ix2 p ⟨q.val, by omega⟩) =
      ((lxw (V m c main_arg1) (V m c main_arg0) (V m c main_arg3) 0 i ⟨512 * R.val + p.val, by omega⟩ q
        - lxw (V m c main_arg2) (V m c main_arg0) (V m c main_arg3) 1 i ⟨512 * R.val + p.val, by omega⟩ q : ℝ) : EReal) := by
  have ei : (⟨t.val % 3, Nat.mod_lt _ (by decide)⟩ : Fin 3) = i := Fin.ext (by show t.val % 3 = i.val; omega)
  have eR : (⟨512 * (t.val / 3) + p.val, by have := t_lt t; omega⟩ : Fin 4096) = ⟨512 * R.val + p.val, by omega⟩ :=
    Fin.ext (by show 512 * (t.val / 3) + p.val = 512 * R.val + p.val; omega)
  rw [pay2_lo _ _ _ _ _ (fin_part m c h t 0) (fin_part m c h t 1) (fin_blk3 m c t h.h3) (fin_blk1 m c t h.h1) (fin_blk2 m c t h.h2) p q]
  congr 1
  unfold lxw xw
  simp only [partX_apply, blk0, blk1, blk2, blk3, ei, eR]

theorem prod_hi :
    k0_pay2 (F := Ideal) (partX (iblk m c 0 t) 0) (partX (iblk m c 0 t) 1) (iblk m c 3 t) (iblk m c 1 t) (iblk m c 2 t) (ix2 p ⟨64 + q.val, by omega⟩) =
      ((lxw (V m c main_arg1) (V m c main_arg0) (V m c main_arg3) 1 i ⟨512 * R.val + p.val, by omega⟩ q
        + lxw (V m c main_arg2) (V m c main_arg0) (V m c main_arg3) 0 i ⟨512 * R.val + p.val, by omega⟩ q : ℝ) : EReal) := by
  have ei : (⟨t.val % 3, Nat.mod_lt _ (by decide)⟩ : Fin 3) = i := Fin.ext (by show t.val % 3 = i.val; omega)
  have eR : (⟨512 * (t.val / 3) + p.val, by have := t_lt t; omega⟩ : Fin 4096) = ⟨512 * R.val + p.val, by omega⟩ :=
    Fin.ext (by show 512 * (t.val / 3) + p.val = 512 * R.val + p.val; omega)
  rw [pay2_hi _ _ _ _ _ (fin_part m c h t 0) (fin_part m c h t 1) (fin_blk3 m c t h.h3) (fin_blk1 m c t h.h1) (fin_blk2 m c t h.h2) p q]
  congr 1
  unfold lxw xw
  simp only [partX_apply, blk0, blk1, blk2, blk3, ei, eR]

end Term

/-! ## The three points of a row block -/

/-- Point (row block R, term i). -/
def pt (R : Fin 8) (i : Fin 3) : Fin cfg0.N :=
  ⟨3 * R.val + i.val, by have := R.isLt; have := i.isLt; rw [show cfg0.N = 24 from N_0]; omega⟩

theorem outsAt_congr (c : Dev nD) {n n' : ℕ} (e : n = n') (hn : n < cfg0.N) (hn' : n' < cfg0.N) :
    outsAt m c n hn = outsAt m c n' hn' := by subst e; rfl

theorem outs0 (c : Dev nD) (R : Fin 8) : outsAt m c (pt R 0).val (pt R 0).isLt = prodAt m c (pt R 0) :=
  outsAt_A' m c (pt R 0) (by show (3 * R.val + 0) % 3 = 0; omega)

theorem outs1 (c : Dev nD) (R : Fin 8) :
    outsAt m c (pt R 1).val (pt R 1).isLt
      = k0_pay3 (partX (iblk m c 0 (pt R 1)) 0) (partX (iblk m c 0 (pt R 1)) 1) (iblk m c 3 (pt R 1)) (iblk m c 1 (pt R 1)) (iblk m c 2 (pt R 1))
          (outsAt m c (pt R 0).val (pt R 0).isLt) := by
  rw [outsAt_B' m c (pt R 1) (by show (3 * R.val + 1) % 3 = 1; omega),
    outsAt_congr m c (show (pt R 1).val - 1 = (pt R 0).val from by show 3 * R.val + 1 - 1 = 3 * R.val + 0; omega) _ (pt R 0).isLt]

theorem outs2 (c : Dev nD) (R : Fin 8) :
    outsAt m c (pt R 2).val (pt R 2).isLt
      = k0_pay1 (iblk m c 4 (pt R 2)) (iblk m c 4 (pt R 2))
          (k0_pay3 (partX (iblk m c 0 (pt R 2)) 0) (partX (iblk m c 0 (pt R 2)) 1) (iblk m c 3 (pt R 2)) (iblk m c 1 (pt R 2)) (iblk m c 2 (pt R 2))
            (outsAt m c (pt R 1).val (pt R 1).isLt)) := by
  rw [outsAt_C' m c (pt R 2) (by show (3 * R.val + 2) % 3 = 2; omega),
    outsAt_congr m c (show (pt R 2).val - 1 = (pt R 1).val from by show 3 * R.val + 2 - 1 = 3 * R.val + 1; omega) _ (pt R 1).isLt]

/-! ## What is written back after term 2 -/

theorem three_add (f : Fin 3 → ℝ) (b : ℝ) : (((f 0 : EReal) + (f 1 : EReal)) + (f 2 : EReal)) + (b : EReal) = (((∑ i : Fin 3, f i) + b : ℝ) : EReal) := by
  rw [Fin.sum_univ_three, EReal.coe_add, EReal.coe_add, EReal.coe_add]

section Flush
variable (c : Dev nD) (h : FinArgs m c) (R : Fin 8) (p : Fin 512) (q : Fin 64)
include h

theorem flush_lo :
    outsAt m c (pt R 2).val (pt R 2).isLt (ix2 p ⟨q.val, by omega⟩)
      = ((outRe (V m c main_arg0) (V m c main_arg1) (V m c main_arg2) (V m c main_arg3) (V m c main_arg4) ⟨512 * R.val + p.val, by omega⟩ q : ℝ) : EReal) := by
  rw [outs2, pay1_lo, pay3_apply, outs1, pay3_apply, outs0]
  unfold prodAt
  rw [prod_lo m c h (pt R 0) 0 R rfl p q, prod_lo m c h (pt R 1) 1 R rfl p q, prod_lo m c h (pt R 2) 2 R rfl p q,
    blk4, ← coe_toReal_of_fin h.h4 (ix2 0 q)]
  exact three_add (fun i => lxw (V m c main_arg1) (V m c main_arg0) (V m c main_arg3) 0 i ⟨512 * R.val + p.val, by omega⟩ q
        - lxw (V m c main_arg2) (V m c main_arg0) (V m c main_arg3) 1 i ⟨512 * R.val + p.val, by omega⟩ q) _

theorem flush_hi :
    outsAt m c (pt R 2).val (pt R 2).isLt (ix2 p ⟨64 + q.val, by omega⟩)
      = ((outIm (V m c main_arg0) (V m c main_arg1) (V m c main_arg2) (V m c main_arg3) (V m c main_arg4) ⟨512 * R.val + p.val, by omega⟩ q : ℝ) : EReal) := by
  rw [outs2, pay1_hi, pay3_apply, outs1, pay3_apply, outs0]
  unfold prodAt
  rw [prod_hi m c h (pt R 0) 0 R rfl p q, prod_hi m c h (pt R 1) 1 R rfl p q, prod_hi m c h (pt R 2) 2 R rfl p q,
    blk4, ← coe_toReal_of_fin h.h4 (ix2 0 q)]
  exact three_add (fun i => lxw (V m c main_arg1) (V m c main_arg0) (V m c main_arg3) 1 i ⟨512 * R.val + p.val, by omega⟩ q
        + lxw (V m c main_arg2) (V m c main_arg0) (V m c main_arg3) 0 i ⟨512 * R.val + p.val, by omega⟩ q) _

end Flush

/-! ## The output array and the two results -/

/-- The output array's entry (r, q): the real part in the left half of the columns, the imaginary part in the right. -/
def Gat (c : Dev nD) (r : Fin 4096) (q : Fin 128) : EReal :=
  if hq : q.val < 64 then
    ((outRe (V m c main_arg0) (V m c main_arg1) (V m c main_arg2) (V m c main_arg3) (V m c main_arg4) r ⟨q.val, hq⟩ : ℝ) : EReal)
  else
    ((outIm (V m c main_arg0) (V m c main_arg1) (V m c main_arg2) (V m c main_arg3) (V m c main_arg4) r ⟨q.val - 64, by have := q.isLt; omega⟩ : ℝ) : EReal)

theorem Gat_lo (c : Dev nD) (r : Fin 4096) (q : Fin 64) :
    Gat m c r ⟨q.val, by omega⟩ = ((outRe (V m c main_arg0) (V m c main_arg1) (V m c main_arg2) (V m c main_arg3) (V m c main_arg4) r q : ℝ) : EReal) := by
  unfold Gat; rw [dif_pos (show q.val < 64 from q.isLt)]

theorem Gat_hi (c : Dev nD) (r : Fin 4096) (q : Fin 64) :
    Gat m c r ⟨64 + q.val, by omega⟩ = ((outIm (V m c main_arg0) (V m c main_arg1) (V m c main_arg2) (V m c main_arg3) (V m c main_arg4) r q : ℝ) : EReal) := by
  unfold Gat; rw [dif_neg (show ¬(64 + q.val < 64) from by omega)]
  congr 2; exact Fin.ext (by show 64 + q.val - 64 = q.val; omega)

/-- The output array after the run. -/
def Gout (c : Dev nD) : Vec Ideal S4096x128 .f32 := fun j => Gat m c (j 0) (j 1)

theorem flushed_eq (c : Dev nD) (h : FinArgs m c) (t : Fin cfg0.N) (hf : (cfg0.win 5).flush t = true) :
    (dats m 0 c).flushed 5 t = ((cfg0.win 5).blk t).view.read (Elt Ideal) (Gout m c) := by
  have h2 : t.val % 3 = 2 := (flush0_5 t).mp hf
  have hN := t_lt t
  obtain ⟨R, rfl⟩ : ∃ R : Fin 8, t = pt R 2 :=
    ⟨⟨t.val / 3, by omega⟩, Fin.ext (by show t.val = 3 * (t.val / 3) + 2; omega)⟩
  have key : ∀ (p : Fin 512) (q : Fin 128),
      (outsAt m c (pt R 2).val (pt R 2).isLt : Vec Ideal S512x128 .f32) (ix2 p q)
        = (((cfg0.win 5).blk (pt R 2)).view.read (Elt Ideal) (Gout m c) : Vec Ideal S512x128 .f32) (ix2 p q) := by
    intro p q
    have eR : (⟨512 * ((pt R 2).val / 3) + p.val, by have := t_lt (pt R 2); omega⟩ : Fin 4096) = ⟨512 * R.val + p.val, by omega⟩ :=
      Fin.ext (by show 512 * ((3 * R.val + 2) / 3) + p.val = 512 * R.val + p.val; omega)
    rw [oblk c (pt R 2) (Gout m c) p q]
    show _ = Gat m c (⟨512 * ((pt R 2).val / 3) + p.val, by have := t_lt (pt R 2); omega⟩ : Fin 4096) q
    rw [eR]
    by_cases hq : q.val < 64
    · obtain ⟨q', rfl⟩ : ∃ q' : Fin 64, q = ⟨q'.val, Nat.lt_of_lt_of_le q'.isLt (by decide)⟩ := ⟨⟨q.val, hq⟩, rfl⟩
      rw [flush_lo m c h R p q', Gat_lo]
    · obtain ⟨q', rfl⟩ : ∃ q' : Fin 64, q = ⟨64 + q'.val, Nat.add_lt_add_left q'.isLt 64⟩ :=
        ⟨⟨q.val - 64, by have := q.isLt; omega⟩, Fin.ext (by show q.val = 64 + (q.val - 64); omega)⟩
      rw [flush_hi m c h R p q', Gat_hi]
  show (cfg0.win 5).cut (grid0.coords (pt R 2)) ((dats m 0 c).after 5 (pt R 2)) = _
  rw [after5]
  funext y
  have hy := key (y 0) (y 1)
  have ey : (ix2 (n0 := 512) (n1 := 128) (y 0) (y 1)) = y := (eq_ix2 (n0 := 512) (n1 := 128) y).symm
  rw [ey] at hy
  exact hy

/-- The output array ends holding `Gout`: the eight write-backs tile it. -/
theorem final5 (c : Dev nD) (h : FinArgs m c) : (dats m 0 c).arrAt 5 cfg0.N = Gout m c :=
  (dats m 0 c).arrAt_eq_of_cover 5 (Gout m c) (flushed_eq m c h) (fun i => ocover i)

/-- The two results. -/
def resRe (c : Dev nD) : Vec Ideal S4096x64 .f32 := fun j =>
  ((outRe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (j 0) (j 1) : ℝ) : EReal)
def resIm (c : Dev nD) : Vec Ideal S4096x64 .f32 := fun j =>
  ((outIm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (j 0) (j 1) : ℝ) : EReal)

theorem v0_eq (c : Dev nD) (h : FinArgs m c) :
    Pipeline.afterTail₀ cfgs (dats m) 0 (V0 m) [hostOps1] c main_v0_0 = resRe m c := by
  rw [tail_v0 m (dats m) c, final5 m c h]
  funext j
  have ej : (ix2 (n0 := 4096) (n1 := 64) (j 0) (j 1)) = j := (eq_ix2 (n0 := 4096) (n1 := 64) j).symm
  have e := slice_lo (Gout m c) (j 0) (j 1)
  rw [ej] at e
  rw [e]
  exact Gat_lo m c (j 0) (j 1)

theorem v1_eq (c : Dev nD) (h : FinArgs m c) :
    Pipeline.afterTail₀ cfgs (dats m) 0 (V0 m) [hostOps1] c main_v0_1 = resIm m c := by
  rw [tail_v1 m (dats m) c, final5 m c h]
  funext j
  have ej : (ix2 (n0 := 4096) (n1 := 64) (j 0) (j 1)) = j := (eq_ix2 (n0 := 4096) (n1 := 64) j).symm
  have e := slice_hi (Gout m c) (j 0) (j 1)
  rw [ej] at e
  rw [e]
  exact Gat_hi m c (j 0) (j 1)

/-- The run, read: under finite inputs the two results end at the specification's real and imaginary parts, and the
    five argument arrays as they began. -/
theorem run (hfin : ∀ c, FinArgs m c) : θ_run defs (onTc (τ := τ) (main (F := Ideal))) ⟨m, fun _ => 0, ρ⟩ (fun r => ∀ c : Dev nD,
      r.2.mem ((c.tc : Thread nD τ).loc main_v0_0) = resRe m c
      ∧ r.2.mem ((c.tc : Thread nD τ).loc main_v0_1) = resIm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v0_0 mem_rest_v0).trans (v0_eq m c (hfin c)),
      ((h c).2 main_v0_1 mem_rest_v1).trans (v1_eq m c (hfin c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Body

end
-- ==== Proof.RefValue.lean ====
import proofs.«165200_g38809324486706_cont_8to1_b_1300_8_alg».proof.Defs
import proofs.«165200_g38809324486706_cont_8to1_b_1300_8_alg».proof.Proof.Gen.ReferenceIdeal.Run
import proofs.«165200_g38809324486706_cont_8to1_b_1300_8_alg».proof.Proof.Gen.ReferenceIdeal.Read
import proofs.«165200_g38809324486706_cont_8to1_b_1300_8_alg».proof.Proof.Spec

/-!
The reference program's two results, entry by entry, are the casts of the real-valued specification
(`Cert.Spec.outRe`, `Cert.Spec.outIm`) wherever the five argument arrays are finite.

The reference multiplies in the order (A · X) · W; the specification in the order A · (X · W). Over the reals the two
agree (sums commute and products distribute); over the extended reals the entries are first replaced by the casts of
their real parts, which is where finiteness is used.
-/

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! ### Two identities over the reals

A row times a matrix, then times a column, is the row times (the matrix times the column); and the same with the
first product negated. -/

theorem real_assoc {N K : ℕ} (a : Fin N → ℝ) (x : Fin N → Fin K → ℝ) (w : Fin K → ℝ) :
    ∑ k, (∑ n, a n * x n k) * w k = ∑ n, a n * ∑ k, x n k * w k := by
  simp only [Finset.sum_mul, Finset.mul_sum]
  rw [Finset.sum_comm]
  refine Finset.sum_congr rfl fun n _ => Finset.sum_congr rfl fun k _ => ?_
  ring

theorem real_assoc_neg {N K : ℕ} (a : Fin N → ℝ) (x : Fin N → Fin K → ℝ) (w : Fin K → ℝ) :
    ∑ k, ((-1) * ∑ n, a n * x n k) * w k = -∑ n, a n * ∑ k, x n k * w k := by
  rw [← real_assoc, ← Finset.sum_neg_distrib]
  refine Finset.sum_congr rfl fun k _ => ?_
  ring

/-! ### Layout operations at an index

Taking matrix `p` out of a stack of matrices and dropping the unit axis reads the stack at (p, ·, ·). -/

theorem X_part0 (x : FVec Ideal S2x4096x64 .f32) (n : Fin 4096) (k : Fin 64) :
    shapeCast S4096x64 (extractStridedSlice S1x4096x64 ![0, 0, 0] x slices_S2x4096x64_S1x4096x64_0_0_0)
      shapeCasts_S1x4096x64_S4096x64 (ix2 n k) = x (ix3 0 n k) := by
  refine (shapeCast_apply _ shapeCasts_S1x4096x64_S4096x64 (ix2 n k) (ix3 (0 : Fin 1) n k) ?_).trans ?_
  · rewrite [Shape.rowMajor_val_three, Shape.rowMajor_val_two]
    show (0 * 4096 + n.val) * 64 + k.val = n.val * 64 + k.val
    omega
  · exact extractStridedSlice_apply ![0, 0, 0] x slices_S2x4096x64_S1x4096x64_0_0_0 (ix3 (0 : Fin 1) n k) (ix3 0 n k)
      (fun a => match a with
        | ⟨0, _⟩ => by show (0 : ℕ) = 0 + 0; rfl
        | ⟨1, _⟩ => by show n.val = 0 + n.val; omega
        | ⟨2, _⟩ => by show k.val = 0 + k.val; omega)

theorem X_part1 (x : FVec Ideal S2x4096x64 .f32) (n : Fin 4096) (k : Fin 64) :
    shapeCast S4096x64 (extractStridedSlice S1x4096x64 ![1, 0, 0] x slices_S2x4096x64_S1x4096x64_1_0_0)
      shapeCasts_S1x4096x64_S4096x64 (ix2 n k) = x (ix3 1 n k) := by
  refine (shapeCast_apply _ shapeCasts_S1x4096x64_S4096x64 (ix2 n k) (ix3 (0 : Fin 1) n k) ?_).trans ?_
  · rewrite [Shape.rowMajor_val_three, Shape.rowMajor_val_two]
    show (0 * 4096 + n.val) * 64 + k.val = n.val * 64 + k.val
    omega
  · exact extractStridedSlice_apply ![1, 0, 0] x slices_S2x4096x64_S1x4096x64_1_0_0 (ix3 (0 : Fin 1) n k) (ix3 1 n k)
      (fun a => match a with
        | ⟨0, _⟩ => by show (1 : ℕ) = 1 + 0; rfl
        | ⟨1, _⟩ => by show n.val = 0 + n.val; omega
        | ⟨2, _⟩ => by show k.val = 0 + k.val; omega)

theorem L_part0 (x : FVec Ideal S3x4096x4096 .f32) (n : Fin 4096) (k : Fin 4096) :
    shapeCast S4096x4096 (extractStridedSlice S1x4096x4096 ![0, 0, 0] x slices_S3x4096x4096_S1x4096x4096_0_0_0)
      shapeCasts_S1x4096x4096_S4096x4096 (ix2 n k) = x (ix3 0 n k) := by
  refine (shapeCast_apply _ shapeCasts_S1x4096x4096_S4096x4096 (ix2 n k) (ix3 (0 : Fin 1) n k) ?_).trans ?_
  · rewrite [Shape.rowMajor_val_three, Shape.rowMajor_val_two]
    show (0 * 4096 + n.val) * 4096 + k.val = n.val * 4096 + k.val
    omega
  · exact extractStridedSlice_apply ![0, 0, 0] x slices_S3x4096x4096_S1x4096x4096_0_0_0 (ix3 (0 : Fin 1) n k) (ix3 0 n k)
      (fun a => match a with
        | ⟨0, _⟩ => by show (0 : ℕ) = 0 + 0; rfl
        | ⟨1, _⟩ => by show n.val = 0 + n.val; omega
        | ⟨2, _⟩ => by show k.val = 0 + k.val; omega)

theorem L_part1 (x : FVec Ideal S3x4096x4096 .f32) (n : Fin 4096) (k : Fin 4096) :
    shapeCast S4096x4096 (extractStridedSlice S1x4096x4096 ![1, 0, 0] x slices_S3x4096x4096_S1x4096x4096_1_0_0)
      shapeCasts_S1x4096x4096_S4096x4096 (ix2 n k) = x (ix3 1 n k) := by
  refine (shapeCast_apply _ shapeCasts_S1x4096x4096_S4096x4096 (ix2 n k) (ix3 (0 : Fin 1) n k) ?_).trans ?_
  · rewrite [Shape.rowMajor_val_three, Shape.rowMajor_val_two]
    show (0 * 4096 + n.val) * 4096 + k.val = n.val * 4096 + k.val
    omega
  · exact extractStridedSlice_apply ![1, 0, 0] x slices_S3x4096x4096_S1x4096x4096_1_0_0 (ix3 (0 : Fin 1) n k) (ix3 1 n k)
      (fun a => match a with
        | ⟨0, _⟩ => by show (1 : ℕ) = 1 + 0; rfl
        | ⟨1, _⟩ => by show n.val = 0 + n.val; omega
        | ⟨2, _⟩ => by show k.val = 0 + k.val; omega)

theorem L_part2 (x : FVec Ideal S3x4096x4096 .f32) (n : Fin 4096) (k : Fin 4096) :
    shapeCast S4096x4096 (extractStridedSlice S1x4096x4096 ![2, 0, 0] x slices_S3x4096x4096_S1x4096x4096_2_0_0)
      shapeCasts_S1x4096x4096_S4096x4096 (ix2 n k) = x (ix3 2 n k) := by
  refine (shapeCast_apply _ shapeCasts_S1x4096x4096_S4096x4096 (ix2 n k) (ix3 (0 : Fin 1) n k) ?_).trans ?_
  · rewrite [Shape.rowMajor_val_three, Shape.rowMajor_val_two]
    show (0 * 4096 + n.val) * 4096 + k.val = n.val * 4096 + k.val
    omega
  · exact extractStridedSlice_apply ![2, 0, 0] x slices_S3x4096x4096_S1x4096x4096_2_0_0 (ix3 (0 : Fin 1) n k) (ix3 2 n k)
      (fun a => match a with
        | ⟨0, _⟩ => by show (2 : ℕ) = 2 + 0; rfl
        | ⟨1, _⟩ => by show n.val = 0 + n.val; omega
        | ⟨2, _⟩ => by show k.val = 0 + k.val; omega)

theorem W_part0 (x : FVec Ideal S3x64x64 .f32) (n : Fin 64) (k : Fin 64) :
    shapeCast S64x64 (extractStridedSlice S1x64x64 ![0, 0, 0] x slices_S3x64x64_S1x64x64_0_0_0)
      shapeCasts_S1x64x64_S64x64 (ix2 n k) = x (ix3 0 n k) := by
  refine (shapeCast_apply _ shapeCasts_S1x64x64_S64x64 (ix2 n k) (ix3 (0 : Fin 1) n k) ?_).trans ?_
  · rewrite [Shape.rowMajor_val_three, Shape.rowMajor_val_two]
    show (0 * 64 + n.val) * 64 + k.val = n.val * 64 + k.val
    omega
  · exact extractStridedSlice_apply ![0, 0, 0] x slices_S3x64x64_S1x64x64_0_0_0 (ix3 (0 : Fin 1) n k) (ix3 0 n k)
      (fun a => match a with
        | ⟨0, _⟩ => by show (0 : ℕ) = 0 + 0; rfl
        | ⟨1, _⟩ => by show n.val = 0 + n.val; omega
        | ⟨2, _⟩ => by show k.val = 0 + k.val; omega)

theorem W_part1 (x : FVec Ideal S3x64x64 .f32) (n : Fin 64) (k : Fin 64) :
    shapeCast S64x64 (extractStridedSlice S1x64x64 ![1, 0, 0] x slices_S3x64x64_S1x64x64_1_0_0)
      shapeCasts_S1x64x64_S64x64 (ix2 n k) = x (ix3 1 n k) := by
  refine (shapeCast_apply _ shapeCasts_S1x64x64_S64x64 (ix2 n k) (ix3 (0 : Fin 1) n k) ?_).trans ?_
  · rewrite [Shape.rowMajor_val_three, Shape.rowMajor_val_two]
    show (0 * 64 + n.val) * 64 + k.val = n.val * 64 + k.val
    omega
  · exact extractStridedSlice_apply ![1, 0, 0] x slices_S3x64x64_S1x64x64_1_0_0 (ix3 (0 : Fin 1) n k) (ix3 1 n k)
      (fun a => match a with
        | ⟨0, _⟩ => by show (1 : ℕ) = 1 + 0; rfl
        | ⟨1, _⟩ => by show n.val = 0 + n.val; omega
        | ⟨2, _⟩ => by show k.val = 0 + k.val; omega)

theorem W_part2 (x : FVec Ideal S3x64x64 .f32) (n : Fin 64) (k : Fin 64) :
    shapeCast S64x64 (extractStridedSlice S1x64x64 ![2, 0, 0] x slices_S3x64x64_S1x64x64_2_0_0)
      shapeCasts_S1x64x64_S64x64 (ix2 n k) = x (ix3 2 n k) := by
  refine (shapeCast_apply _ shapeCasts_S1x64x64_S64x64 (ix2 n k) (ix3 (0 : Fin 1) n k) ?_).trans ?_
  · rewrite [Shape.rowMajor_val_three, Shape.rowMajor_val_two]
    show (0 * 64 + n.val) * 64 + k.val = n.val * 64 + k.val
    omega
  · exact extractStridedSlice_apply ![2, 0, 0] x slices_S3x64x64_S1x64x64_2_0_0 (ix3 (0 : Fin 1) n k) (ix3 2 n k)
      (fun a => match a with
        | ⟨0, _⟩ => by show (2 : ℕ) = 2 + 0; rfl
        | ⟨1, _⟩ => by show n.val = 0 + n.val; omega
        | ⟨2, _⟩ => by show k.val = 0 + k.val; omega)

/-! ### The same at finite arrays: every entry read is the cast of its real part -/

theorem X_cast0 (x : FVec Ideal S2x4096x64 .f32) (h : Cert.Spec.Fin' (S := S2x4096x64) x) (n : Fin 4096) (k : Fin 64) :
    shapeCast S4096x64 (extractStridedSlice S1x4096x64 ![0, 0, 0] x slices_S2x4096x64_S1x4096x64_0_0_0)
      shapeCasts_S1x4096x64_S4096x64 (ix2 n k) = (((x (ix3 0 n k)).toReal : ℝ) : EReal) :=
  (X_part0 x n k).trans (Cert.Spec.coe_toReal_of_fin h _).symm

theorem X_cast1 (x : FVec Ideal S2x4096x64 .f32) (h : Cert.Spec.Fin' (S := S2x4096x64) x) (n : Fin 4096) (k : Fin 64) :
    shapeCast S4096x64 (extractStridedSlice S1x4096x64 ![1, 0, 0] x slices_S2x4096x64_S1x4096x64_1_0_0)
      shapeCasts_S1x4096x64_S4096x64 (ix2 n k) = (((x (ix3 1 n k)).toReal : ℝ) : EReal) :=
  (X_part1 x n k).trans (Cert.Spec.coe_toReal_of_fin h _).symm

theorem L_cast0 (x : FVec Ideal S3x4096x4096 .f32) (h : Cert.Spec.Fin' (S := S3x4096x4096) x) (n : Fin 4096) (k : Fin 4096) :
    shapeCast S4096x4096 (extractStridedSlice S1x4096x4096 ![0, 0, 0] x slices_S3x4096x4096_S1x4096x4096_0_0_0)
      shapeCasts_S1x4096x4096_S4096x4096 (ix2 n k) = (((x (ix3 0 n k)).toReal : ℝ) : EReal) :=
  (L_part0 x n k).trans (Cert.Spec.coe_toReal_of_fin h _).symm

theorem L_cast1 (x : FVec Ideal S3x4096x4096 .f32) (h : Cert.Spec.Fin' (S := S3x4096x4096) x) (n : Fin 4096) (k : Fin 4096) :
    shapeCast S4096x4096 (extractStridedSlice S1x4096x4096 ![1, 0, 0] x slices_S3x4096x4096_S1x4096x4096_1_0_0)
      shapeCasts_S1x4096x4096_S4096x4096 (ix2 n k) = (((x (ix3 1 n k)).toReal : ℝ) : EReal) :=
  (L_part1 x n k).trans (Cert.Spec.coe_toReal_of_fin h _).symm

theorem L_cast2 (x : FVec Ideal S3x4096x4096 .f32) (h : Cert.Spec.Fin' (S := S3x4096x4096) x) (n : Fin 4096) (k : Fin 4096) :
    shapeCast S4096x4096 (extractStridedSlice S1x4096x4096 ![2, 0, 0] x slices_S3x4096x4096_S1x4096x4096_2_0_0)
      shapeCasts_S1x4096x4096_S4096x4096 (ix2 n k) = (((x (ix3 2 n k)).toReal : ℝ) : EReal) :=
  (L_part2 x n k).trans (Cert.Spec.coe_toReal_of_fin h _).symm

theorem W_cast0 (x : FVec Ideal S3x64x64 .f32) (h : Cert.Spec.Fin' (S := S3x64x64) x) (n : Fin 64) (k : Fin 64) :
    shapeCast S64x64 (extractStridedSlice S1x64x64 ![0, 0, 0] x slices_S3x64x64_S1x64x64_0_0_0)
      shapeCasts_S1x64x64_S64x64 (ix2 n k) = (((x (ix3 0 n k)).toReal : ℝ) : EReal) :=
  (W_part0 x n k).trans (Cert.Spec.coe_toReal_of_fin h _).symm

theorem W_cast1 (x : FVec Ideal S3x64x64 .f32) (h : Cert.Spec.Fin' (S := S3x64x64) x) (n : Fin 64) (k : Fin 64) :
    shapeCast S64x64 (extractStridedSlice S1x64x64 ![1, 0, 0] x slices_S3x64x64_S1x64x64_1_0_0)
      shapeCasts_S1x64x64_S64x64 (ix2 n k) = (((x (ix3 1 n k)).toReal : ℝ) : EReal) :=
  (W_part1 x n k).trans (Cert.Spec.coe_toReal_of_fin h _).symm

theorem W_cast2 (x : FVec Ideal S3x64x64 .f32) (h : Cert.Spec.Fin' (S := S3x64x64) x) (n : Fin 64) (k : Fin 64) :
    shapeCast S64x64 (extractStridedSlice S1x64x64 ![2, 0, 0] x slices_S3x64x64_S1x64x64_2_0_0)
      shapeCasts_S1x64x64_S64x64 (ix2 n k) = (((x (ix3 2 n k)).toReal : ℝ) : EReal) :=
  (W_part2 x n k).trans (Cert.Spec.coe_toReal_of_fin h _).symm

/-! ### The two matrix products at an index -/

theorem dotA_l0 (i : S4096x64.Idx) (q : dot_S4096x4096_S4096x64_S4096x64_1_0_0_1_n_n.contr.Idx) : (dot_S4096x4096_S4096x64_S4096x64_1_0_0_1_n_n.lhsIdx i q 0).val = (i 0).val := by
  unfold DotDims.lhsIdx
  rw [dif_neg (show ¬(0 : Fin S4096x4096.rank) ∈ dot_S4096x4096_S4096x64_S4096x64_1_0_0_1_n_n.lhsBatch by decide), dif_pos (show (0 : Fin S4096x4096.rank) ∈ dot_S4096x4096_S4096x64_S4096x64_1_0_0_1_n_n.lhsNonContracting by decide)]
  rfl
theorem dotA_l1 (i : S4096x64.Idx) (q : dot_S4096x4096_S4096x64_S4096x64_1_0_0_1_n_n.contr.Idx) : (dot_S4096x4096_S4096x64_S4096x64_1_0_0_1_n_n.lhsIdx i q 1).val = (q ⟨0, by decide⟩).val :=
  dot_S4096x4096_S4096x64_S4096x64_1_0_0_1_n_n.lhsIdx_val_of_single rfl i q
theorem dotA_r0 (i : S4096x64.Idx) (q : dot_S4096x4096_S4096x64_S4096x64_1_0_0_1_n_n.contr.Idx) : (dot_S4096x4096_S4096x64_S4096x64_1_0_0_1_n_n.rhsIdx i q 0).val = (q ⟨0, by decide⟩).val :=
  dot_S4096x4096_S4096x64_S4096x64_1_0_0_1_n_n.rhsIdx_val_of_single rfl i q
theorem dotA_r1 (i : S4096x64.Idx) (q : dot_S4096x4096_S4096x64_S4096x64_1_0_0_1_n_n.contr.Idx) : (dot_S4096x4096_S4096x64_S4096x64_1_0_0_1_n_n.rhsIdx i q 1).val = (i 1).val := by
  unfold DotDims.rhsIdx
  rw [dif_neg (show ¬(1 : Fin S4096x64.rank) ∈ dot_S4096x4096_S4096x64_S4096x64_1_0_0_1_n_n.rhsBatch by decide), dif_pos (show (1 : Fin S4096x64.rank) ∈ dot_S4096x4096_S4096x64_S4096x64_1_0_0_1_n_n.rhsNonContracting by decide)]
  rfl

/-- A [4096, 4096] matrix times a [4096, 64] matrix, at (r, k): the sum over the shared axis. -/
theorem dotA (L : FVec Ideal S4096x4096 .f32) (X : FVec Ideal S4096x64 .f32) (r : Fin 4096) (k : Fin 64) :
    Host.dotGeneral dot_S4096x4096_S4096x64_S4096x64_1_0_0_1_n_n none L X (ix2 r k) = ∑ n : Fin 4096, L (ix2 r n) * X (ix2 n k) := by
  simp only [Host.dotGeneral]
  rw [Ideal.dotGeneral_apply, ← Equiv.sum_comp (ValueIdx.contrEquiv1 dot_S4096x4096_S4096x64_S4096x64_1_0_0_1_n_n 4096 rfl rfl).symm]
  refine Finset.sum_congr rfl fun n _ => ?_
  have hn := ValueIdx.contrEquiv1_symm_val dot_S4096x4096_S4096x64_S4096x64_1_0_0_1_n_n 4096 rfl rfl n
  have el : dot_S4096x4096_S4096x64_S4096x64_1_0_0_1_n_n.lhsIdx (ix2 r k) ((ValueIdx.contrEquiv1 dot_S4096x4096_S4096x64_S4096x64_1_0_0_1_n_n 4096 rfl rfl).symm n) = ix2 r n :=
    funext fun a => Fin.ext (by
      match a with
      | ⟨0, _⟩ => exact dotA_l0 _ _
      | ⟨1, _⟩ => exact (dotA_l1 _ _).trans hn)
  have er : dot_S4096x4096_S4096x64_S4096x64_1_0_0_1_n_n.rhsIdx (ix2 r k) ((ValueIdx.contrEquiv1 dot_S4096x4096_S4096x64_S4096x64_1_0_0_1_n_n 4096 rfl rfl).symm n) = ix2 n k :=
    funext fun a => Fin.ext (by
      match a with
      | ⟨0, _⟩ => exact (dotA_r0 _ _).trans hn
      | ⟨1, _⟩ => exact dotA_r1 _ _)
  rw [el, er]

theorem dotB_l0 (i : S4096x64.Idx) (q : dot_S4096x64_S64x64_S4096x64_1_0_0_1_n_n.contr.Idx) : (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem dotB_l1 (i : S4096x64.Idx) (q : dot_S4096x64_S64x64_S4096x64_1_0_0_1_n_n.contr.Idx) : (dot_S4096x64_S64x64_S4096x64_1_0_0_1_n_n.lhsIdx i q 1).val = (q ⟨0, by decide⟩).val :=
  dot_S4096x64_S64x64_S4096x64_1_0_0_1_n_n.lhsIdx_val_of_single rfl i q
theorem dotB_r0 (i : S4096x64.Idx) (q : dot_S4096x64_S64x64_S4096x64_1_0_0_1_n_n.contr.Idx) : (dot_S4096x64_S64x64_S4096x64_1_0_0_1_n_n.rhsIdx i q 0).val = (q ⟨0, by decide⟩).val :=
  dot_S4096x64_S64x64_S4096x64_1_0_0_1_n_n.rhsIdx_val_of_single rfl i q
theorem dotB_r1 (i : S4096x64.Idx) (q : dot_S4096x64_S64x64_S4096x64_1_0_0_1_n_n.contr.Idx) : (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- A [4096, 64] matrix times a [64, 64] matrix, at (r, k): the sum over the shared axis. -/
theorem dotB (L : FVec Ideal S4096x64 .f32) (X : FVec Ideal S64x64 .f32) (r : Fin 4096) (k : Fin 64) :
    Host.dotGeneral dot_S4096x64_S64x64_S4096x64_1_0_0_1_n_n none L X (ix2 r k) = ∑ n : Fin 64, L (ix2 r n) * X (ix2 n k) := by
  simp only [Host.dotGeneral]
  rw [Ideal.dotGeneral_apply, ← Equiv.sum_comp (ValueIdx.contrEquiv1 dot_S4096x64_S64x64_S4096x64_1_0_0_1_n_n 64 rfl rfl).symm]
  refine Finset.sum_congr rfl fun n _ => ?_
  have hn := ValueIdx.contrEquiv1_symm_val dot_S4096x64_S64x64_S4096x64_1_0_0_1_n_n 64 rfl rfl n
  have el : dot_S4096x64_S64x64_S4096x64_1_0_0_1_n_n.lhsIdx (ix2 r k) ((ValueIdx.contrEquiv1 dot_S4096x64_S64x64_S4096x64_1_0_0_1_n_n 64 rfl rfl).symm n) = ix2 r n :=
    funext fun a => Fin.ext (by
      match a with
      | ⟨0, _⟩ => exact dotB_l0 _ _
      | ⟨1, _⟩ => exact (dotB_l1 _ _).trans hn)
  have er : dot_S4096x64_S64x64_S4096x64_1_0_0_1_n_n.rhsIdx (ix2 r k) ((ValueIdx.contrEquiv1 dot_S4096x64_S64x64_S4096x64_1_0_0_1_n_n 64 rfl rfl).symm n) = ix2 n k :=
    funext fun a => Fin.ext (by
      match a with
      | ⟨0, _⟩ => exact (dotB_r0 _ _).trans hn
      | ⟨1, _⟩ => exact dotB_r1 _ _)
  rw [el, er]

/-! ### Broadcasts, concatenations, the sum over the stack, the two constants -/

/-- A matrix given a leading unit axis. -/
theorem bc_unit (y : FVec Ideal S4096x64 .f32) (r : Fin 4096) (c : Fin 64) :
    broadcastInDim S1x4096x64 ![1, 2] bcast_S4096x64_S1x4096x64_1_2 y (ix3 0 r c) = y (ix2 r c) :=
  broadcastInDim_apply _ bcast_S4096x64_S1x4096x64_1_2 y (ix3 0 r c) (ix2 r c) (fun a => match a with
    | ⟨0, _⟩ => by show r.val = if (4096 : Nat) = 1 then 0 else r.val; rw [if_neg (by decide)]
    | ⟨1, _⟩ => by show c.val = if (64 : Nat) = 1 then 0 else c.val; rw [if_neg (by decide)])

/-- A pair of matrices given a leading unit axis. -/
theorem bc_unit4 (y : FVec Ideal S2x4096x64 .f32) (p : Fin 2) (r : Fin 4096) (c : Fin 64) :
    broadcastInDim S1x2x4096x64 ![1, 2, 3] bcast_S2x4096x64_S1x2x4096x64_1_2_3 y (ix4 0 p r c) = y (ix3 p r c) :=
  broadcastInDim_apply _ bcast_S2x4096x64_S1x2x4096x64_1_2_3 y (ix4 0 p r c) (ix3 p r c) (fun a => match a with
    | ⟨0, _⟩ => by show p.val = if (2 : Nat) = 1 then 0 else p.val; rw [if_neg (by decide)]
    | ⟨1, _⟩ => by show r.val = if (4096 : Nat) = 1 then 0 else r.val; rw [if_neg (by decide)]
    | ⟨2, _⟩ => by show c.val = if (64 : Nat) = 1 then 0 else c.val; rw [if_neg (by decide)])

/-- A scalar spread over a matrix. -/
theorem bc_const (v : FVec Ideal S_ .f32) (r : Fin 4096) (c : Fin 64) :
    broadcastInDim S4096x64 ![] bcast_S_S4096x64 v (ix2 r c) = v ix0 :=
  broadcastInDim_apply _ bcast_S_S4096x64 v (ix2 r c) ix0 (fun a => a.elim0)

/-- The bias row spread over the rows of a matrix. -/
theorem bc_bias (b : FVec Ideal S1x64 .f32) (r : Fin 4096) (c : Fin 64) :
    broadcastInDim S4096x64 ![0, 1] bcast_S1x64_S4096x64_0_1 b (ix2 r c) = b (ix2 0 c) :=
  broadcastInDim_apply _ bcast_S1x64_S4096x64_0_1 b (ix2 r c) (ix2 0 c) (fun a => match a with
    | ⟨0, _⟩ => by show 0 = if (1 : Nat) = 1 then 0 else r.val; rw [if_pos rfl]
    | ⟨1, _⟩ => by show c.val = if (64 : Nat) = 1 then 0 else c.val; rw [if_neg (by decide)])

/-- Two matrices stacked: the first is part 0. -/
theorem cat2_fst (a b : FVec Ideal S1x4096x64 .f32) (r : Fin 4096) (c : Fin 64) :
    concatenate S2x4096x64 0 [⟨S1x4096x64, a⟩, ⟨S1x4096x64, b⟩] concatenates_S1x4096x64_S1x4096x64_S2x4096x64_d0 (ix3 0 r c)
      = a (ix3 0 r c) :=
  concatenate_pair_apply_left 0 a b concatenates_S1x4096x64_S1x4096x64_S2x4096x64_d0 (ix3 0 r c) rfl (ix3 0 r c)
    (fun d => match d with
      | ⟨0, _⟩ => rfl
      | ⟨1, _⟩ => rfl
      | ⟨2, _⟩ => rfl)

/-- Two matrices stacked: the second is part 1. -/
theorem cat2_snd (a b : FVec Ideal S1x4096x64 .f32) (r : Fin 4096) (c : Fin 64) :
    concatenate S2x4096x64 0 [⟨S1x4096x64, a⟩, ⟨S1x4096x64, b⟩] concatenates_S1x4096x64_S1x4096x64_S2x4096x64_d0 (ix3 1 r c)
      = b (ix3 0 r c) :=
  concatenate_pair_apply_right 0 a b concatenates_S1x4096x64_S1x4096x64_S2x4096x64_d0 (ix3 1 r c) rfl rfl (ix3 0 r c)
    (fun d => match d with
      | ⟨0, _⟩ => fun hd => absurd rfl hd
      | ⟨1, _⟩ => fun _ => rfl
      | ⟨2, _⟩ => fun _ => rfl)
    rfl

/-- Three pairs of matrices stacked: pair `k` is part `k`. -/
theorem cat3_0 (a b d : FVec Ideal S1x2x4096x64 .f32) (p : Fin 2) (r : Fin 4096) (c : Fin 64) :
    concatenate S3x2x4096x64 0 [⟨S1x2x4096x64, a⟩, ⟨S1x2x4096x64, b⟩, ⟨S1x2x4096x64, d⟩]
      concatenates_S1x2x4096x64_S1x2x4096x64_S1x2x4096x64_S3x2x4096x64_d0 (ix4 0 p r c) = a (ix4 0 p r c) :=
  concatenate_apply_piece (α := EReal) (t := S3x2x4096x64) 0 [⟨S1x2x4096x64, a⟩, ⟨S1x2x4096x64, b⟩, ⟨S1x2x4096x64, d⟩] concatenates_S1x2x4096x64_S1x2x4096x64_S1x2x4096x64_S3x2x4096x64_d0 (ix4 0 p r c)
    0 (by simp) S1x2x4096x64 a rfl rfl 0 rfl (ix4 0 p r c)
    (fun e => match e with
      | ⟨0, _⟩ => fun he => absurd rfl he
      | ⟨1, _⟩ => fun _ => rfl
      | ⟨2, _⟩ => fun _ => rfl
      | ⟨3, _⟩ => fun _ => rfl)
    rfl

theorem cat3_1 (a b d : FVec Ideal S1x2x4096x64 .f32) (p : Fin 2) (r : Fin 4096) (c : Fin 64) :
    concatenate S3x2x4096x64 0 [⟨S1x2x4096x64, a⟩, ⟨S1x2x4096x64, b⟩, ⟨S1x2x4096x64, d⟩]
      concatenates_S1x2x4096x64_S1x2x4096x64_S1x2x4096x64_S3x2x4096x64_d0 (ix4 1 p r c) = b (ix4 0 p r c) :=
  concatenate_apply_piece (α := EReal) (t := S3x2x4096x64) 0 [⟨S1x2x4096x64, a⟩, ⟨S1x2x4096x64, b⟩, ⟨S1x2x4096x64, d⟩] concatenates_S1x2x4096x64_S1x2x4096x64_S1x2x4096x64_S3x2x4096x64_d0 (ix4 1 p r c)
    1 (by simp) S1x2x4096x64 b rfl rfl 1 rfl (ix4 0 p r c)
    (fun e => match e with
      | ⟨0, _⟩ => fun he => absurd rfl he
      | ⟨1, _⟩ => fun _ => rfl
      | ⟨2, _⟩ => fun _ => rfl
      | ⟨3, _⟩ => fun _ => rfl)
    rfl

theorem cat3_2 (a b d : FVec Ideal S1x2x4096x64 .f32) (p : Fin 2) (r : Fin 4096) (c : Fin 64) :
    concatenate S3x2x4096x64 0 [⟨S1x2x4096x64, a⟩, ⟨S1x2x4096x64, b⟩, ⟨S1x2x4096x64, d⟩]
      concatenates_S1x2x4096x64_S1x2x4096x64_S1x2x4096x64_S3x2x4096x64_d0 (ix4 2 p r c) = d (ix4 0 p r c) :=
  concatenate_apply_piece (α := EReal) (t := S3x2x4096x64) 0 [⟨S1x2x4096x64, a⟩, ⟨S1x2x4096x64, b⟩, ⟨S1x2x4096x64, d⟩] concatenates_S1x2x4096x64_S1x2x4096x64_S1x2x4096x64_S3x2x4096x64_d0 (ix4 2 p r c)
    2 (by simp) S1x2x4096x64 d rfl rfl 2 rfl (ix4 0 p r c)
    (fun e => match e with
      | ⟨0, _⟩ => fun he => absurd rfl he
      | ⟨1, _⟩ => fun _ => rfl
      | ⟨2, _⟩ => fun _ => rfl
      | ⟨3, _⟩ => fun _ => rfl)
    rfl

/-- The sum over the stacking axis of three stacked pairs, from a scalar start value. -/
theorem sum_stack (y : FVec Ideal S3x2x4096x64 .f32) (z : FVec Ideal S_ .f32) (p : Fin 2) (r : Fin 4096) (c : Fin 64) :
    Host.reduceAdd y z reducesTo_S3x2x4096x64_S2x4096x64_d0 h_S_ (ix3 p r c)
      = z (Shape.Idx.first h_S_) + (y (ix4 0 p r c) + y (ix4 1 p r c) + y (ix4 2 p r c)) := by
  have e : Host.reduceAdd y z reducesTo_S3x2x4096x64_S2x4096x64_d0 h_S_ (ix3 p r c)
      = z (Shape.Idx.first h_S_) + ∑ k : Fin 3, y (ix4 k p r c) := by
    simp only [Host.reduceAdd, Ideal.hostReduceAdd_def]
    rw [Ideal.hostReduceAdd_single reducesTo_S3x2x4096x64_S2x4096x64_d0 (by decide)]
    refine congrArg (_ + ·) (Finset.sum_congr rfl fun k _ => ?_)
    exact congrArg y (funext fun a => Fin.ext (by
      match a with
      | ⟨0, _⟩ => rfl
      | ⟨1, _⟩ => rfl
      | ⟨2, _⟩ => rfl
      | ⟨3, _⟩ => rfl))
  rw [e, Fin.sum_univ_three]

/-- The pattern of `-1.0` denotes the real `-1`. -/
theorem ofBits_neg_one : Ideal.ofBits .f32 0xBF800000#32 = ((-1 : ℝ) : EReal) := by
  simp [Ideal.ofBits, Ideal.ieee, -EReal.coe_mul]; norm_num

/-! ### The two chains of products, at arrays whose entries are casts of reals -/

/-- (L · X) · W at (r, c) is the cast of Σ_n l(r,n) · Σ_k x(n,k) · w(k,c). -/
theorem LXW_real (L : FVec Ideal S4096x4096 .f32) (X : FVec Ideal S4096x64 .f32) (W : FVec Ideal S64x64 .f32)
    (l : Fin 4096 → Fin 4096 → ℝ) (x : Fin 4096 → Fin 64 → ℝ) (w : Fin 64 → Fin 64 → ℝ)
    (hL : ∀ r n, L (ix2 r n) = ((l r n : ℝ) : EReal)) (hX : ∀ n k, X (ix2 n k) = ((x n k : ℝ) : EReal))
    (hW : ∀ k c, W (ix2 k c) = ((w k c : ℝ) : EReal)) (r : Fin 4096) (c : Fin 64) :
    Host.dotGeneral dot_S4096x64_S64x64_S4096x64_1_0_0_1_n_n none
        (Host.dotGeneral dot_S4096x4096_S4096x64_S4096x64_1_0_0_1_n_n none L X) W (ix2 r c)
      = ((∑ n, l r n * ∑ k, x n k * w k c : ℝ) : EReal) := by
  rw [dotB]
  simp only [dotA, hL, hX, hW]
  rw [← real_assoc (l r) x (fun k => w k c)]
  simp only [Cert.Spec.coe_sum, EReal.coe_mul]

/-- ((-1) · (L · X)) · W at (r, c) is the cast of −Σ_n l(r,n) · Σ_k x(n,k) · w(k,c). -/
theorem nLXW_real (L : FVec Ideal S4096x4096 .f32) (X : FVec Ideal S4096x64 .f32) (W : FVec Ideal S64x64 .f32)
    (l : Fin 4096 → Fin 4096 → ℝ) (x : Fin 4096 → Fin 64 → ℝ) (w : Fin 64 → Fin 64 → ℝ)
    (hL : ∀ r n, L (ix2 r n) = ((l r n : ℝ) : EReal)) (hX : ∀ n k, X (ix2 n k) = ((x n k : ℝ) : EReal))
    (hW : ∀ k c, W (ix2 k c) = ((w k c : ℝ) : EReal)) (r : Fin 4096) (c : Fin 64) :
    Host.dotGeneral dot_S4096x64_S64x64_S4096x64_1_0_0_1_n_n none
        (mulf (broadcastInDim S4096x64 ![] bcast_S_S4096x64 (constant S_ .f32 0xBF800000#32))
          (Host.dotGeneral dot_S4096x4096_S4096x64_S4096x64_1_0_0_1_n_n none L X)) W (ix2 r c)
      = ((-∑ n, l r n * ∑ k, x n k * w k c : ℝ) : EReal) := by
  rw [dotB, ← real_assoc_neg (l r) x (fun k => w k c), Cert.Spec.coe_sum]
  refine Finset.sum_congr rfl fun k _ => ?_
  rw [mulf_apply, bc_const, constant_apply, ofBits_neg_one, dotA]
  simp only [hL, hX, hW, Cert.Spec.coe_sum, EReal.coe_mul]

/-! ### The reference's six sums of products, at finite arguments

For i = 0, 1, 2 the reference forms (A_i · X₀) · W_i + ((-1) · (B_i · X₁)) · W_i and (B_i · X₀) · W_i + (A_i · X₁) · W_i;
at (r, c) these are the casts of the specification's i-th real and imaginary terms. -/

section Leaves

variable (x0 : (⟨S2x4096x64, .f32⟩ : BufTy).Contents (Elt Ideal)) (x1 x2 : (⟨S3x4096x4096, .f32⟩ : BufTy).Contents (Elt Ideal)) (x3 : (⟨S3x64x64, .f32⟩ : BufTy).Contents (Elt Ideal))
  (h0 : Cert.Spec.Fin' (S := S2x4096x64) x0) (h1 : Cert.Spec.Fin' (S := S3x4096x4096) x1)
  (h2 : Cert.Spec.Fin' (S := S3x4096x4096) x2) (h3 : Cert.Spec.Fin' (S := S3x64x64) x3)
include h0 h1 h2 h3

theorem re_0 (r : Fin 4096) (c : Fin 64) :
    val_main_v18 (F := Ideal) x0 x1 x2 x3 (ix2 r c)
      = ((Cert.Spec.lxw x1 x0 x3 0 0 r c - Cert.Spec.lxw x2 x0 x3 1 0 r c : ℝ) : EReal) := by
  have e1 : val_main_v9 (F := Ideal) x0 x1 x3 (ix2 r c) = ((Cert.Spec.lxw x1 x0 x3 0 0 r c : ℝ) : EReal) :=
    LXW_real _ _ _ _ _ _ (L_cast0 x1 h1) (X_cast0 x0 h0) (W_cast0 x3 h3) r c
  have e2 : val_main_v17 (F := Ideal) x0 x2 x3 (ix2 r c) = ((-Cert.Spec.lxw x2 x0 x3 1 0 r c : ℝ) : EReal) :=
    nLXW_real _ _ _ _ _ _ (L_cast0 x2 h2) (X_cast1 x0 h0) (W_cast0 x3 h3) r c
  rw [val_main_v18_apply, e1, e2]
  exact (EReal.coe_add _ _).symm.trans (congrArg Real.toEReal (sub_eq_add_neg _ _).symm)

theorem im_0 (r : Fin 4096) (c : Fin 64) :
    val_main_v31 (F := Ideal) x0 x1 x2 x3 (ix2 r c)
      = ((Cert.Spec.lxw x1 x0 x3 1 0 r c + Cert.Spec.lxw x2 x0 x3 0 0 r c : ℝ) : EReal) := by
  have e1 : val_main_v24 (F := Ideal) x0 x2 x3 (ix2 r c) = ((Cert.Spec.lxw x2 x0 x3 0 0 r c : ℝ) : EReal) :=
    LXW_real _ _ _ _ _ _ (L_cast0 x2 h2) (X_cast0 x0 h0) (W_cast0 x3 h3) r c
  have e2 : val_main_v30 (F := Ideal) x0 x1 x3 (ix2 r c) = ((Cert.Spec.lxw x1 x0 x3 1 0 r c : ℝ) : EReal) :=
    LXW_real _ _ _ _ _ _ (L_cast0 x1 h1) (X_cast1 x0 h0) (W_cast0 x3 h3) r c
  rw [val_main_v31_apply, e1, e2]
  exact (EReal.coe_add _ _).symm.trans (congrArg Real.toEReal (add_comm _ _))

theorem re_1 (r : Fin 4096) (c : Fin 64) :
    val_main_v49 (F := Ideal) x0 x1 x2 x3 (ix2 r c)
      = ((Cert.Spec.lxw x1 x0 x3 0 1 r c - Cert.Spec.lxw x2 x0 x3 1 1 r c : ℝ) : EReal) := by
  have e1 : val_main_v40 (F := Ideal) x0 x1 x3 (ix2 r c) = ((Cert.Spec.lxw x1 x0 x3 0 1 r c : ℝ) : EReal) :=
    LXW_real _ _ _ _ _ _ (L_cast1 x1 h1) (X_cast0 x0 h0) (W_cast1 x3 h3) r c
  have e2 : val_main_v48 (F := Ideal) x0 x2 x3 (ix2 r c) = ((-Cert.Spec.lxw x2 x0 x3 1 1 r c : ℝ) : EReal) :=
    nLXW_real _ _ _ _ _ _ (L_cast1 x2 h2) (X_cast1 x0 h0) (W_cast1 x3 h3) r c
  rw [val_main_v49_apply, e1, e2]
  exact (EReal.coe_add _ _).symm.trans (congrArg Real.toEReal (sub_eq_add_neg _ _).symm)

theorem im_1 (r : Fin 4096) (c : Fin 64) :
    val_main_v62 (F := Ideal) x0 x1 x2 x3 (ix2 r c)
      = ((Cert.Spec.lxw x1 x0 x3 1 1 r c + Cert.Spec.lxw x2 x0 x3 0 1 r c : ℝ) : EReal) := by
  have e1 : val_main_v55 (F := Ideal) x0 x2 x3 (ix2 r c) = ((Cert.Spec.lxw x2 x0 x3 0 1 r c : ℝ) : EReal) :=
    LXW_real _ _ _ _ _ _ (L_cast1 x2 h2) (X_cast0 x0 h0) (W_cast1 x3 h3) r c
  have e2 : val_main_v61 (F := Ideal) x0 x1 x3 (ix2 r c) = ((Cert.Spec.lxw x1 x0 x3 1 1 r c : ℝ) : EReal) :=
    LXW_real _ _ _ _ _ _ (L_cast1 x1 h1) (X_cast1 x0 h0) (W_cast1 x3 h3) r c
  rw [val_main_v62_apply, e1, e2]
  exact (EReal.coe_add _ _).symm.trans (congrArg Real.toEReal (add_comm _ _))

theorem re_2 (r : Fin 4096) (c : Fin 64) :
    val_main_v80 (F := Ideal) x0 x1 x2 x3 (ix2 r c)
      = ((Cert.Spec.lxw x1 x0 x3 0 2 r c - Cert.Spec.lxw x2 x0 x3 1 2 r c : ℝ) : EReal) := by
  have e1 : val_main_v71 (F := Ideal) x0 x1 x3 (ix2 r c) = ((Cert.Spec.lxw x1 x0 x3 0 2 r c : ℝ) : EReal) :=
    LXW_real _ _ _ _ _ _ (L_cast2 x1 h1) (X_cast0 x0 h0) (W_cast2 x3 h3) r c
  have e2 : val_main_v79 (F := Ideal) x0 x2 x3 (ix2 r c) = ((-Cert.Spec.lxw x2 x0 x3 1 2 r c : ℝ) : EReal) :=
    nLXW_real _ _ _ _ _ _ (L_cast2 x2 h2) (X_cast1 x0 h0) (W_cast2 x3 h3) r c
  rw [val_main_v80_apply, e1, e2]
  exact (EReal.coe_add _ _).symm.trans (congrArg Real.toEReal (sub_eq_add_neg _ _).symm)

theorem im_2 (r : Fin 4096) (c : Fin 64) :
    val_main_v93 (F := Ideal) x0 x1 x2 x3 (ix2 r c)
      = ((Cert.Spec.lxw x1 x0 x3 1 2 r c + Cert.Spec.lxw x2 x0 x3 0 2 r c : ℝ) : EReal) := by
  have e1 : val_main_v86 (F := Ideal) x0 x2 x3 (ix2 r c) = ((Cert.Spec.lxw x2 x0 x3 0 2 r c : ℝ) : EReal) :=
    LXW_real _ _ _ _ _ _ (L_cast2 x2 h2) (X_cast0 x0 h0) (W_cast2 x3 h3) r c
  have e2 : val_main_v92 (F := Ideal) x0 x1 x3 (ix2 r c) = ((Cert.Spec.lxw x1 x0 x3 1 2 r c : ℝ) : EReal) :=
    LXW_real _ _ _ _ _ _ (L_cast2 x1 h1) (X_cast1 x0 h0) (W_cast2 x3 h3) r c
  rw [val_main_v93_apply, e1, e2]
  exact (EReal.coe_add _ _).symm.trans (congrArg Real.toEReal (add_comm _ _))

end Leaves

/-! ### The stacks and their sum -/

section Stack

variable (x0 : (⟨S2x4096x64, .f32⟩ : BufTy).Contents (Elt Ideal)) (x1 x2 : (⟨S3x4096x4096, .f32⟩ : BufTy).Contents (Elt Ideal)) (x3 : (⟨S3x64x64, .f32⟩ : BufTy).Contents (Elt Ideal))

theorem stack0_re (r : Fin 4096) (c : Fin 64) :
    val_main_v34 (F := Ideal) x0 x1 x2 x3 (ix3 0 r c) = val_main_v18 (F := Ideal) x0 x1 x2 x3 (ix2 r c) :=
  (cat2_fst (val_main_v32 (F := Ideal) x0 x1 x2 x3) (val_main_v33 (F := Ideal) x0 x1 x2 x3) r c).trans (bc_unit (val_main_v18 (F := Ideal) x0 x1 x2 x3) r c)

theorem stack0_im (r : Fin 4096) (c : Fin 64) :
    val_main_v34 (F := Ideal) x0 x1 x2 x3 (ix3 1 r c) = val_main_v31 (F := Ideal) x0 x1 x2 x3 (ix2 r c) :=
  (cat2_snd (val_main_v32 (F := Ideal) x0 x1 x2 x3) (val_main_v33 (F := Ideal) x0 x1 x2 x3) r c).trans (bc_unit (val_main_v31 (F := Ideal) x0 x1 x2 x3) r c)

theorem stack1_re (r : Fin 4096) (c : Fin 64) :
    val_main_v65 (F := Ideal) x0 x1 x2 x3 (ix3 0 r c) = val_main_v49 (F := Ideal) x0 x1 x2 x3 (ix2 r c) :=
  (cat2_fst (val_main_v63 (F := Ideal) x0 x1 x2 x3) (val_main_v64 (F := Ideal) x0 x1 x2 x3) r c).trans (bc_unit (val_main_v49 (F := Ideal) x0 x1 x2 x3) r c)

theorem stack1_im (r : Fin 4096) (c : Fin 64) :
    val_main_v65 (F := Ideal) x0 x1 x2 x3 (ix3 1 r c) = val_main_v62 (F := Ideal) x0 x1 x2 x3 (ix2 r c) :=
  (cat2_snd (val_main_v63 (F := Ideal) x0 x1 x2 x3) (val_main_v64 (F := Ideal) x0 x1 x2 x3) r c).trans (bc_unit (val_main_v62 (F := Ideal) x0 x1 x2 x3) r c)

theorem stack2_re (r : Fin 4096) (c : Fin 64) :
    val_main_v96 (F := Ideal) x0 x1 x2 x3 (ix3 0 r c) = val_main_v80 (F := Ideal) x0 x1 x2 x3 (ix2 r c) :=
  (cat2_fst (val_main_v94 (F := Ideal) x0 x1 x2 x3) (val_main_v95 (F := Ideal) x0 x1 x2 x3) r c).trans (bc_unit (val_main_v80 (F := Ideal) x0 x1 x2 x3) r c)

theorem stack2_im (r : Fin 4096) (c : Fin 64) :
    val_main_v96 (F := Ideal) x0 x1 x2 x3 (ix3 1 r c) = val_main_v93 (F := Ideal) x0 x1 x2 x3 (ix2 r c) :=
  (cat2_snd (val_main_v94 (F := Ideal) x0 x1 x2 x3) (val_main_v95 (F := Ideal) x0 x1 x2 x3) r c).trans (bc_unit (val_main_v93 (F := Ideal) x0 x1 x2 x3) r c)

/-- The sum over the three stacked pairs, at part `p`, row `r`, column `c`. -/
theorem sum_at (p : Fin 2) (r : Fin 4096) (c : Fin 64) :
    val_main_v101 (F := Ideal) x0 x1 x2 x3 (ix3 p r c)
      = val_main_v34 (F := Ideal) x0 x1 x2 x3 (ix3 p r c) + val_main_v65 (F := Ideal) x0 x1 x2 x3 (ix3 p r c)
        + val_main_v96 (F := Ideal) x0 x1 x2 x3 (ix3 p r c) := by
  refine (sum_stack (val_main_v100 (F := Ideal) x0 x1 x2 x3) (val_main_cst_2 (F := Ideal)) p r c).trans ?_
  have e0 : val_main_v100 (F := Ideal) x0 x1 x2 x3 (ix4 0 p r c) = val_main_v34 (F := Ideal) x0 x1 x2 x3 (ix3 p r c) :=
    (cat3_0 (val_main_v97 (F := Ideal) x0 x1 x2 x3) (val_main_v98 (F := Ideal) x0 x1 x2 x3) (val_main_v99 (F := Ideal) x0 x1 x2 x3) p r c).trans
      (bc_unit4 (val_main_v34 (F := Ideal) x0 x1 x2 x3) p r c)
  have e1 : val_main_v100 (F := Ideal) x0 x1 x2 x3 (ix4 1 p r c) = val_main_v65 (F := Ideal) x0 x1 x2 x3 (ix3 p r c) :=
    (cat3_1 (val_main_v97 (F := Ideal) x0 x1 x2 x3) (val_main_v98 (F := Ideal) x0 x1 x2 x3) (val_main_v99 (F := Ideal) x0 x1 x2 x3) p r c).trans
      (bc_unit4 (val_main_v65 (F := Ideal) x0 x1 x2 x3) p r c)
  have e2 : val_main_v100 (F := Ideal) x0 x1 x2 x3 (ix4 2 p r c) = val_main_v96 (F := Ideal) x0 x1 x2 x3 (ix3 p r c) :=
    (cat3_2 (val_main_v97 (F := Ideal) x0 x1 x2 x3) (val_main_v98 (F := Ideal) x0 x1 x2 x3) (val_main_v99 (F := Ideal) x0 x1 x2 x3) p r c).trans
      (bc_unit4 (val_main_v96 (F := Ideal) x0 x1 x2 x3) p r c)
  rw [e0, e1, e2]
  show Ideal.ofBits .f32 0x00000000#32 + _ = _
  rw [Ideal.ofBits_zero_f32, zero_add]

end Stack

/-! ### The two results -/

/-- The reference's first result at (r, c) is the cast of the specification's real part, at finite arguments. -/
theorem ref_re (x0 : (⟨S2x4096x64, .f32⟩ : BufTy).Contents (Elt Ideal)) (x1 x2 : (⟨S3x4096x4096, .f32⟩ : BufTy).Contents (Elt Ideal)) (x3 : (⟨S3x64x64, .f32⟩ : BufTy).Contents (Elt Ideal)) (x4 : (⟨S1x64, .f32⟩ : BufTy).Contents (Elt Ideal))
    (h0 : Cert.Spec.Fin' (S := S2x4096x64) x0) (h1 : Cert.Spec.Fin' (S := S3x4096x4096) x1)
    (h2 : Cert.Spec.Fin' (S := S3x4096x4096) x2) (h3 : Cert.Spec.Fin' (S := S3x64x64) x3)
    (h4 : Cert.Spec.Fin' (S := S1x64) x4) (r : Fin 4096) (c : Fin 64) :
    val_main_v105 (F := Ideal) x0 x1 x2 x3 x4 (ix2 r c) = ((Cert.Spec.outRe x0 x1 x2 x3 x4 r c : ℝ) : EReal) := by
  have e1 : val_main_v103 (F := Ideal) x0 x1 x2 x3 (ix2 r c) = val_main_v101 (F := Ideal) x0 x1 x2 x3 (ix3 0 r c) :=
    X_part0 (val_main_v101 (F := Ideal) x0 x1 x2 x3) r c
  have e2 : val_main_v104 (F := Ideal) x4 (ix2 r c) = (((x4 (ix2 0 c)).toReal : ℝ) : EReal) :=
    (bc_bias x4 r c).trans (Cert.Spec.coe_toReal_of_fin h4 _).symm
  rw [val_main_v105_apply, e1, e2, sum_at, stack0_re, stack1_re, stack2_re,
    re_0 x0 x1 x2 x3 h0 h1 h2 h3, re_1 x0 x1 x2 x3 h0 h1 h2 h3, re_2 x0 x1 x2 x3 h0 h1 h2 h3]
  show (_ + _ : EReal) = _
  simp only [← EReal.coe_add]
  refine congrArg Real.toEReal ?_
  unfold Cert.Spec.outRe
  rw [Fin.sum_univ_three]

/-- The reference's second result at (r, c) is the cast of the specification's imaginary part, at finite arguments. -/
theorem ref_im (x0 : (⟨S2x4096x64, .f32⟩ : BufTy).Contents (Elt Ideal)) (x1 x2 : (⟨S3x4096x4096, .f32⟩ : BufTy).Contents (Elt Ideal)) (x3 : (⟨S3x64x64, .f32⟩ : BufTy).Contents (Elt Ideal)) (x4 : (⟨S1x64, .f32⟩ : BufTy).Contents (Elt Ideal))
    (h0 : Cert.Spec.Fin' (S := S2x4096x64) x0) (h1 : Cert.Spec.Fin' (S := S3x4096x4096) x1)
    (h2 : Cert.Spec.Fin' (S := S3x4096x4096) x2) (h3 : Cert.Spec.Fin' (S := S3x64x64) x3)
    (h4 : Cert.Spec.Fin' (S := S1x64) x4) (r : Fin 4096) (c : Fin 64) :
    val_main_v109 (F := Ideal) x0 x1 x2 x3 x4 (ix2 r c) = ((Cert.Spec.outIm x0 x1 x2 x3 x4 r c : ℝ) : EReal) := by
  have e1 : val_main_v107 (F := Ideal) x0 x1 x2 x3 (ix2 r c) = val_main_v101 (F := Ideal) x0 x1 x2 x3 (ix3 1 r c) :=
    X_part1 (val_main_v101 (F := Ideal) x0 x1 x2 x3) r c
  have e2 : val_main_v108 (F := Ideal) x4 (ix2 r c) = (((x4 (ix2 0 c)).toReal : ℝ) : EReal) :=
    (bc_bias x4 r c).trans (Cert.Spec.coe_toReal_of_fin h4 _).symm
  rw [val_main_v109_apply, e1, e2, sum_at, stack0_im, stack1_im, stack2_im,
    im_0 x0 x1 x2 x3 h0 h1 h2 h3, im_1 x0 x1 x2 x3 h0 h1 h2 h3, im_2 x0 x1 x2 x3 h0 h1 h2 h3]
  show (_ + _ : EReal) = _
  simp only [← EReal.coe_add]
  refine congrArg Real.toEReal ?_
  unfold Cert.Spec.outIm
  rw [Fin.sum_univ_three]

/-! ### The same, of the run's named results -/

/-- The run's first result, at (r, k), is the cast of the specification's real part of the launch contents of the
    five arguments, where those are finite. -/
theorem res_re (m : (ℓ : Loc nD τ sig) → Buf (Elt Ideal) ℓ) (c : Dev nD)
    (h0 : Cert.Spec.Fin' (S := S2x4096x64) (m ((c.tc : Thread nD τ).loc main_arg0))) (h1 : Cert.Spec.Fin' (S := S3x4096x4096) (m ((c.tc : Thread nD τ).loc main_arg1)))
    (h2 : Cert.Spec.Fin' (S := S3x4096x4096) (m ((c.tc : Thread nD τ).loc main_arg2))) (h3 : Cert.Spec.Fin' (S := S3x64x64) (m ((c.tc : Thread nD τ).loc main_arg3)))
    (h4 : Cert.Spec.Fin' (S := S1x64) (m ((c.tc : Thread nD τ).loc main_arg4))) (r : Fin 4096) (k : Fin 64) :
    Cert.ReferenceIdeal.Value.res_main_v105 (F := Ideal) m c (ix2 r k)
      = ((Cert.Spec.outRe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r k : ℝ) : EReal) :=
  (congrFun (val_main_v105_eq (F := Ideal) m c) (ix2 r k)).trans (ref_re _ _ _ _ _ h0 h1 h2 h3 h4 r k)

/-- The run's second result, at (r, k), is the cast of the specification's imaginary part of the launch contents of
    the five arguments, where those are finite. -/
theorem res_im (m : (ℓ : Loc nD τ sig) → Buf (Elt Ideal) ℓ) (c : Dev nD)
    (h0 : Cert.Spec.Fin' (S := S2x4096x64) (m ((c.tc : Thread nD τ).loc main_arg0))) (h1 : Cert.Spec.Fin' (S := S3x4096x4096) (m ((c.tc : Thread nD τ).loc main_arg1)))
    (h2 : Cert.Spec.Fin' (S := S3x4096x4096) (m ((c.tc : Thread nD τ).loc main_arg2))) (h3 : Cert.Spec.Fin' (S := S3x64x64) (m ((c.tc : Thread nD τ).loc main_arg3)))
    (h4 : Cert.Spec.Fin' (S := S1x64) (m ((c.tc : Thread nD τ).loc main_arg4))) (r : Fin 4096) (k : Fin 64) :
    Cert.ReferenceIdeal.Value.res_main_v109 (F := Ideal) m c (ix2 r k)
      = ((Cert.Spec.outIm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r k : ℝ) : EReal) :=
  (congrFun (val_main_v109_eq (F := Ideal) m c) (ix2 r k)).trans (ref_im _ _ _ _ _ h0 h1 h2 h3 h4 r k)

end Cert.ReferenceIdeal.RefValue

end
-- ==== Proof.PreFinite.lean ====
import proofs.«165200_g38809324486706_cont_8to1_b_1300_8_alg».proof.Pre_finite_inputs
import proofs.«165200_g38809324486706_cont_8to1_b_1300_8_alg».proof.Proof.Spec
import Idealize.ShloMosaic.PureOps.Ideal
import Idealize.ShloMosaic.Lib.ReduceAll
import Idealize.ShloMosaic.Lib.ValueIdx

/-!
The precondition, read back: when the predicate "every entry of every argument array has absolute value
below +∞" evaluates to true, every entry of each of the five arrays is neither +∞ nor −∞.

The predicate is a conjunction of five terms, one per array; each term is an `and` over all entries of the
array of the comparison |x| < c, where c is the value of the single-precision pattern 0x7F800000, which is +∞.
Over the extended reals |x| = max x (−x), and max x (−x) < ⊤ fails at x = ⊤ (the maximum is ⊤) and at
x = ⊥ (then −x = ⊤), so it holds exactly at the finite entries.
-/

noncomputable section

namespace Cert.Pre_finite_inputs.Fin

open Idealize.ShloMosaic

/-- The rank-0 shape has one index. -/
instance : Subsingleton S_.Idx := ⟨fun a b => funext fun d => d.elim0⟩

/-- The single-precision pattern 0x7F800000 denotes +∞. -/
theorem inf_eq : (FloatOps.ofBits (F := Ideal) .f32 0x7F800000#32 : EReal) = ⊤ := by
  show Ideal.ofBits .f32 0x7F800000#32 = ⊤
  simp [Ideal.ofBits, Ideal.ieee]

/-- An extended real whose absolute value is below +∞ is finite. -/
theorem fin_of_abs_lt (x : EReal) (h : Ideal.cmp .olt (max x (-x)) ⊤ = 1#1) : x ≠ ⊤ ∧ x ≠ ⊥ := by
  have hlt : max x (-x) < ⊤ := by
    unfold Ideal.cmp at h
    by_contra hn
    simp [hn] at h
  constructor
  · rintro rfl
    simp at hlt
  · rintro rfl
    simp at hlt

/-- One term of the predicate: an array whose comparison |x| < +∞ reduces by `and` to true has only finite entries. -/
theorem fin_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
          (cmpf .olt (Host.absf x) (broadcastInDim S ![] hb (constant (F := Ideal) S_ .f32 0x7F800000#32)))
          (constantI S_ 1 1#1) hr hu ValueIdx.ix0 = 1#1) :
    Cert.Spec.Fin' x := by
  intro j
  have hj := Host.reduce_andi_all _ _ hr hu ValueIdx.ix0 e j
  apply fin_of_abs_lt
  have : (cmpf .olt (Host.absf x) (broadcastInDim S ![] hb (constant (F := Ideal) S_ .f32 0x7F800000#32))) j
      = Ideal.cmp .olt (max (x j) (-(x j))) (FloatOps.ofBits (F := Ideal) .f32 0x7F800000#32) := rfl
  rw [this, inf_eq] at hj
  exact hj

variable [Cert.Pre_finite_inputs.Facts]

/-- THE PRECONDITION DECODED: every entry of each of the five argument arrays is finite. -/
theorem fin_of_pre (a0 : FVec Ideal S2x4096x64 .f32) (a1 a2 : FVec Ideal S3x4096x4096 .f32)
    (a3 : FVec Ideal S3x64x64 .f32) (a4 : FVec Ideal S1x64 .f32)
    (h : Cert.Pre_finite_inputs.fn (F := Ideal) a0 a1 a2 a3 a4 = fun _ => 1#1) :
    Cert.Spec.Fin' a0 ∧ Cert.Spec.Fin' a1 ∧ Cert.Spec.Fin' a2 ∧ Cert.Spec.Fin' a3 ∧ Cert.Spec.Fin' a4 := by
  have e := congrFun h ValueIdx.ix0
  unfold Cert.Pre_finite_inputs.fn Cert.Pre_finite_inputs.fn_part1 at e
  dsimp only [andi] at e
  simp only [IntOp.andi_eq_one] at e
  obtain ⟨⟨⟨⟨e0, e1⟩, e2⟩, e3⟩, e4⟩ := e
  exact ⟨fin_of_all a0 _ _ _ e0, fin_of_all a1 _ _ _ e1, fin_of_all a2 _ _ _ e2, fin_of_all a3 _ _ _ e3,
    fin_of_all a4 _ _ _ e4⟩

end Cert.Pre_finite_inputs.Fin

end
-- ==== Proof.lean ====
/-
  The certificate of the Chebyshev spectral graph convolution kernel against its reference.

  The kernel runs a grid of 8 row blocks × 3 Chebyshev terms. For each term i it forms the small products X₀·W_i and
  X₁·W_i once, packs them side by side, multiplies the row block of A_i and of B_i into the packed [4096, 128]
  operands, and accumulates the [512, 128] result over the three terms in the output block, adding the bias row
  after the last; its two results are the two column halves of the [4096, 128] output. The reference multiplies the
  Laplacians into the features first, then by the weights, negates with a literal −1, sums the three terms and adds
  the bias.

  Frames: the body's triple in each of the three cases of its branches, the contents of the output block point by
  point, and the library's launch theorem give each kernel program's run (at the word-level instance and at the
  ideal one); the reference's frame is its generated run with the results dropped. The idealization rewrote no
  operation, so it preserves the program trivially.

  Equal results: under the precondition every input entry is a real number, so both programs compute finite sums and
  products of reals, where (A·X)·W = A·(X·W) and −1·s = 0 − s hold; both sides are shown equal to one real-valued
  specification of the convolution, entry by entry.
-/
import proofs.«165200_g38809324486706_cont_8to1_b_1300_8_alg».proof.Defs
import proofs.«165200_g38809324486706_cont_8to1_b_1300_8_alg».proof.Proof.Gen.Kernel
import proofs.«165200_g38809324486706_cont_8to1_b_1300_8_alg».proof.Proof.Gen.KernelIdeal
import proofs.«165200_g38809324486706_cont_8to1_b_1300_8_alg».proof.Proof.Gen.ReferenceIdeal
import proofs.«165200_g38809324486706_cont_8to1_b_1300_8_alg».proof.Proof.Gen.Pre_finite_inputs
import proofs.«165200_g38809324486706_cont_8to1_b_1300_8_alg».proof.Proof.Gen.ReferenceIdeal.Run
import proofs.«165200_g38809324486706_cont_8to1_b_1300_8_alg».proof.Proof.Gen.ReferenceIdeal.Read
import proofs.«165200_g38809324486706_cont_8to1_b_1300_8_alg».proof.Proof.KB.Frame
import proofs.«165200_g38809324486706_cont_8to1_b_1300_8_alg».proof.Proof.KI.Value
import proofs.«165200_g38809324486706_cont_8to1_b_1300_8_alg».proof.Proof.RefValue
import proofs.«165200_g38809324486706_cont_8to1_b_1300_8_alg».proof.Proof.PreFinite
import Idealize.ShloMosaic.Adequacy
import Idealize.ShloMosaic.Init

noncomputable section

namespace Cert.Proof

open Idealize.ShloMosaic Idealize.ShloMosaic.TcCoe Idealize.SL.Sem

/-- The word-level kernel program runs to the end and leaves its arguments as they were. -/
theorem frame_k : Cert.frame_Kernel := fun m ρ _ => Cert.Kernel.Body.frame m ρ

/-- So does the idealized kernel program. -/
theorem frame_ki : Cert.frame_KernelIdeal := fun m ρ _ => Cert.KernelIdeal.Body.frame m ρ

/-- And the reference: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Under finite inputs both programs end with the specification's real and imaginary parts as their two results. -/
theorem algebraic : Cert.algebraic_KernelIdeal_ReferenceIdeal := by
  intro m ρ m' ρ' hpre hagree
  have hfin : ∀ c, Cert.KernelIdeal.Body.FinArgs m c := fun c => by
    obtain ⟨h0, h1, h2, h3, h4⟩ := Cert.Pre_finite_inputs.Fin.fin_of_pre _ _ _ _ _ (hpre c)
    exact ⟨h0, h1, h2, h3, h4⟩
  refine ⟨fun c => Cert.KernelIdeal.Body.resRe m c, fun c => Cert.KernelIdeal.Body.resIm m c,
    Cert.KernelIdeal.Body.run m ρ hfin, ?_⟩
  refine (θ_run Cert.ReferenceIdeal.defs _ _).mono (fun _ h c => ?_) (Cert.ReferenceIdeal.Value.run (F := Ideal) m' ρ')
  obtain ⟨a0, a1, a2, a3, a4⟩ := hagree c
  refine ⟨(h c).1.trans ?_, (h c).2.1.trans ?_, (h c).2.2⟩
  · rw [Cert.ReferenceIdeal.Read.val_main_v105_eq, a0, a1, a2, a3, a4]
    funext j
    have e := Cert.ReferenceIdeal.RefValue.ref_re _ _ _ _ _ (hfin c).h0 (hfin c).h1 (hfin c).h2 (hfin c).h3 (hfin c).h4 (j 0) (j 1)
    have ej : (ValueIdx.ix2 (n0 := 4096) (n1 := 64) (j 0) (j 1)) = j := (ValueIdx.eq_ix2 (n0 := 4096) (n1 := 64) j).symm
    rw [ej] at e
    exact e
  · rw [Cert.ReferenceIdeal.Read.val_main_v109_eq, a0, a1, a2, a3, a4]
    funext j
    have e := Cert.ReferenceIdeal.RefValue.ref_im _ _ _ _ _ (hfin c).h0 (hfin c).h1 (hfin c).h2 (hfin c).h3 (hfin c).h4 (j 0) (j 1)
    have ej : (ValueIdx.ix2 (n0 := 4096) (n1 := 64) (j 0) (j 1)) = j := (ValueIdx.eq_ix2 (n0 := 4096) (n1 := 64) j).symm
    rw [ej] at e
    exact e

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
